-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S128x1 .f32) (main_arg13 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x1 .f32 := Host.absf main_arg12
  let main_cst_20 : FVec F S_ .f32 := constant S_ .f32 0x7F800000#32
  let main_v55 : FVec F S128x1 .f32 := broadcastInDim S128x1 ![] bcast_S_S128x1 main_cst_20
  let main_v56 : IVec S128x1 1 := cmpf .olt main_v54 main_v55
  let main_c_21 : IVec S_ 1 := constantI S_ 1 1#1
  let main_v57 : IVec S_ 1 := (fun x v => Host.reduce IntOp.andi x v reducesTo_S128x1_S_d0_1 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg8 : FVec F S128x1 .f32) (main_arg9 : FVec F S1 .f32) (main_arg10 : FVec F S256x128 .f32) (main_arg11 : FVec F S128 .f32) (main_arg12 : FVec F S128x1 .f32) (main_arg13 : FVec F S1 .f32) (main_v33 : IVec S_ 1) : IVec S_ 1 :=
  let main_v34 : FVec F S128x1 .f32 := Host.absf main_arg8
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S256x128 .f32 := Host.absf main_arg10
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_v48 main_v49 main_v50

def fn_part1 {F : FTy → Type} [FloatOps F] (main_arg5 : FVec F S128 .f32) (main_arg6 : FVec F S256x128 .f32) (main_arg7 : FVec F S128 .f32) (main_arg8 : FVec F S128x1 .f32) (main_arg9 : FVec F S1 .f32) (main_arg10 : FVec F S256x128 .f32) (main_arg11 : FVec F S128 .f32) (main_arg12 : FVec F S128x1 .f32) (main_arg13 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S256x128 .f32) (main_arg7 : FVec F S128 .f32) (main_arg8 : FVec F S128x1 .f32) (main_arg9 : FVec F S1 .f32) (main_arg10 : FVec F S256x128 .f32) (main_arg11 : FVec F S128 .f32) (main_arg12 : FVec F S128x1 .f32) (main_arg13 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S1x1 : Shape := ⟨2, ![1, 1]⟩
abbrev S6400x128 : Shape := ⟨2, ![6400, 128]⟩
abbrev S6400x256 : Shape := ⟨2, ![6400, 256]⟩
abbrev S6400x1 : Shape := ⟨2, ![6400, 1]⟩
abbrev S50000 : Shape := ⟨1, ![50000]⟩
abbrev S50000x1 : Shape := ⟨2, ![50000, 1]⟩
abbrev S2000x128 : Shape := ⟨2, ![2000, 128]⟩
abbrev S2000x1 : Shape := ⟨2, ![2000, 1]⟩
abbrev S2000x256 : Shape := ⟨2, ![2000, 256]⟩

abbrev nBuf : Space → Nat
  | .hbm => 80
  | .vmem => 32
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S256x128, .f32⟩
  | .hbm, ⟨11, _⟩ => ⟨S128, .f32⟩
  | .hbm, ⟨12, _⟩ => ⟨S128x1, .f32⟩
  | .hbm, ⟨13, _⟩ => ⟨S1, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S50000x128, .bf16⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x128, .bf16⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .bf16⟩
  | .hbm, ⟨37, _⟩ => ⟨S256x128, .bf16⟩
  | .hbm, ⟨38, _⟩ => ⟨S128x1, .bf16⟩
  | .hbm, ⟨39, _⟩ => ⟨S128x128, .bf16⟩
  | .hbm, ⟨40, _⟩ => ⟨S128x128, .bf16⟩
  | .hbm, ⟨41, _⟩ => ⟨S1x128, .f32⟩
  | .hbm, ⟨42, _⟩ => ⟨S1x1, .f32⟩
  | .hbm, ⟨43, _⟩ => ⟨S1x128, .f32⟩
  | .hbm, ⟨44, _⟩ => ⟨S1x128, .f32⟩
  | .hbm, ⟨45, _⟩ => ⟨S800000x128, .bf16⟩
  | .hbm, ⟨46, _⟩ => ⟨S800000x128, .bf16⟩
  | .hbm, ⟨47, _⟩ => ⟨S_, .f32⟩
  | .hbm, ⟨48, _⟩ => ⟨S800000, .f32⟩
  | .hbm, ⟨49, _⟩ => ⟨S_, .f32⟩
  | .hbm, ⟨50, _⟩ => ⟨S50000, .f32⟩
  | .hbm, ⟨51, _⟩ => ⟨S800000x1, .i32⟩
  | .hbm, ⟨52, _⟩ => ⟨S50000, .f32⟩
  | .hbm, ⟨53, _⟩ => ⟨S_, .f32⟩
  | .hbm, ⟨54, _⟩ => ⟨S50000, .f32⟩
  | .hbm, ⟨55, _⟩ => ⟨S50000, .f32⟩
  | .hbm, ⟨56, _⟩ => ⟨S_, .f32⟩
  | .hbm, ⟨57, _⟩ => ⟨S50000, .f32⟩
  | .hbm, ⟨58, _⟩ => ⟨S800000x1, .i32⟩
  | .hbm, ⟨59, _⟩ => ⟨S50000, .f32⟩
  | .hbm, ⟨60, _⟩ => ⟨S_, .f32⟩
  | .hbm, ⟨61, _⟩ => ⟨S50000, .f32⟩
  | .hbm, ⟨62, _⟩ => ⟨S50000, .f32⟩
  | .hbm, ⟨63, _⟩ => ⟨S800000x128, .f32⟩
  | .hbm, ⟨64, _⟩ => ⟨S_, .f32⟩
  | .hbm, ⟨65, _⟩ => ⟨S50000x128, .f32⟩
  | .hbm, ⟨66, _⟩ => ⟨S800000x1, .i32⟩
  | .hbm, ⟨67, _⟩ => ⟨S50000x128, .f32⟩
  | .hbm, ⟨68, _⟩ => ⟨S800000x128, .f32⟩
  | .hbm, ⟨69, _⟩ => ⟨S_, .f32⟩
  | .hbm, ⟨70, _⟩ => ⟨S50000x128, .f32⟩
  | .hbm, ⟨71, _⟩ => ⟨S800000x1, .i32⟩
  | .hbm, ⟨72, _⟩ => ⟨S50000x128, .f32⟩
  | .hbm, ⟨73, _⟩ => ⟨S50000x1, .f32⟩
  | .hbm, ⟨74, _⟩ => ⟨S50000x1, .f32⟩
  | .hbm, ⟨75, _⟩ => ⟨S256x128, .bf16⟩
  | .hbm, ⟨76, _⟩ => ⟨S128x1, .bf16⟩
  | .hbm, ⟨77, _⟩ => ⟨S1x128, .f32⟩
  | .hbm, ⟨78, _⟩ => ⟨S1x1, .f32⟩
  | .hbm, ⟨79, _⟩ => ⟨S50000x128, .f32⟩
  | .local _ .vmem, ⟨0, _⟩ => ⟨S6400x128, .bf16⟩
  | .local _ .vmem, ⟨1, _⟩ => ⟨S6400x128, .bf16⟩
  | .local _ .vmem, ⟨2, _⟩ => ⟨S6400x128, .bf16⟩
  | .local _ .vmem, ⟨3, _⟩ => ⟨S6400x128, .bf16⟩
  | .local _ .vmem, ⟨4, _⟩ => ⟨S256x128, .bf16⟩
  | .local _ .vmem, ⟨5, _⟩ => ⟨S1x128, .f32⟩
  | .local _ .vmem, ⟨6, _⟩ => ⟨S128x1, .bf16⟩
  | .local _ .vmem, ⟨7, _⟩ => ⟨S1x1, .f32⟩
  | .local _ .vmem, ⟨8, _⟩ => ⟨S128x128, .bf16⟩
  | .local _ .vmem, ⟨9, _⟩ => ⟨S1x128, .f32⟩
  | .local _ .vmem, ⟨10, _⟩ => ⟨S128x128, .bf16⟩
  | .local _ .vmem, ⟨11, _⟩ => ⟨S1x128, .f32⟩
  | .local _ .vmem, ⟨12, _⟩ => ⟨S6400x128, .bf16⟩
  | .local _ .vmem, ⟨13, _⟩ => ⟨S6400x128, .bf16⟩
  | .local _ .vmem, ⟨14, _⟩ => ⟨S6400x128, .bf16⟩
  | .local _ .vmem, ⟨15, _⟩ => ⟨S6400x128, .bf16⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x1, .f32⟩
  | .local _ .vmem, ⟨21, _⟩ => ⟨S2000x1, .f32⟩
  | .local _ .vmem, ⟨22, _⟩ => ⟨S2000x1, .f32⟩
  | .local _ .vmem, ⟨23, _⟩ => ⟨S2000x1, .f32⟩
  | .local _ .vmem, ⟨24, _⟩ => ⟨S2000x128, .f32⟩
  | .local _ .vmem, ⟨25, _⟩ => ⟨S2000x128, .f32⟩
  | .local _ .vmem, ⟨26, _⟩ => ⟨S256x128, .bf16⟩
  | .local _ .vmem, ⟨27, _⟩ => ⟨S1x128, .f32⟩
  | .local _ .vmem, ⟨28, _⟩ => ⟨S128x1, .bf16⟩
  | .local _ .vmem, ⟨29, _⟩ => ⟨S1x1, .f32⟩
  | .local _ .vmem, ⟨30, _⟩ => ⟨S2000x128, .f32⟩
  | .local _ .vmem, ⟨31, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c : Ref sig .tc := ⟨.hbm, 19, rfl⟩
abbrev main_v5 : Ref sig .tc := ⟨.hbm, 20, rfl⟩
abbrev main_v6 : Ref sig .tc := ⟨.hbm, 21, rfl⟩
abbrev main_c_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c_1 : Ref sig .tc := ⟨.hbm, 28, rfl⟩
abbrev main_v12 : Ref sig .tc := ⟨.hbm, 29, rfl⟩
abbrev main_v13 : Ref sig .tc := ⟨.hbm, 30, rfl⟩
abbrev main_c_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27_0 : Ref sig .tc := ⟨.hbm, 45, rfl⟩
abbrev main_v27_1 : Ref sig .tc := ⟨.hbm, 46, rfl⟩
abbrev main_cst : Ref sig .tc := ⟨.hbm, 47, rfl⟩
abbrev main_v28 : Ref sig .tc := ⟨.hbm, 48, rfl⟩
abbrev main_cst_3 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_4 : Ref sig .tc := ⟨.hbm, 53, rfl⟩
abbrev main_v32 : Ref sig .tc := ⟨.hbm, 54, rfl⟩
abbrev main_v33 : Ref sig .tc := ⟨.hbm, 55, rfl⟩
abbrev main_cst_5 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_6 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_7 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_8 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg6_0 : Ref sig .tc := ⟨.vmem, 27, rfl⟩
abbrev cc1_stg7_0 : Ref sig .tc := ⟨.vmem, 28, rfl⟩
abbrev cc1_stg8_0 : Ref sig .tc := ⟨.vmem, 29, rfl⟩
abbrev cc1_stg9_0 : Ref sig .tc := ⟨.vmem, 30, rfl⟩
abbrev cc1_stg9_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem6_0 : DmaSem sig := 27
abbrev cc1_sem7_0 : DmaSem sig := 28
abbrev cc1_sem8_0 : DmaSem sig := 29
abbrev cc1_sem9_0 : DmaSem sig := 30
abbrev cc1_sem9_1 : DmaSem sig := 31

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S6400x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S6400x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S256x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x1 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  shapeCasts_S128_S1x128 : S128.ShapeCasts S1x128
  shapeCasts_S1_S1x1 : S1.ShapeCasts S1x1
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  concatenates_S6400x128_S6400x128_S6400x256_d1 : Shape.Concatenates [S6400x128, S6400x128] S6400x256 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6400x128 : S1x128.Broadcasts S6400x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S6400x1 : S1x1.Broadcasts S6400x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S6400x1_S6400x128 : S6400x1.Broadcasts S6400x128
  packedbf16_S6400x128_S6400x128_0_0 : (Rect.unit (s := S6400x128) ![0, 0] S6400x128.size inb_S6400x128_S6400x128_0_0).PackedRows (EltTy.packing .bf16)
  bcast_S_S50000 : S_.BroadcastsInDim S50000 (![] : Fin 0 → Fin S50000.rank)
  bcast_S_S50000x128 : S_.BroadcastsInDim S50000x128 (![] : Fin 0 → Fin S50000x128.rank)
  shapeCasts_S50000_S50000x1 : S50000.ShapeCasts S50000x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  concatenates_S2000x128_S2000x128_S2000x256_d1 : Shape.Concatenates [S2000x128, S2000x128] S2000x256 1
  broadcasts_S1x128_S2000x128 : S1x128.Broadcasts S2000x128
  broadcasts_S1x1_S2000x1 : S1x1.Broadcasts S2000x1
  gather_S50000x128_S800000x1_S800000x128_1_0_n_n_0_1_1128_wf : GatherDims.WF S50000x128 S800000x1 S800000x128 [1] [0] [] [0] [] 1 ![1, 128]
  dot_S6400x256_S256x128_S6400x128_1_0_0_1_n_n_wf : DotDims.WF S6400x256 S256x128 S6400x128 [1] [0] [0] [1] [] []
  dot_S6400x128_S128x1_S6400x1_1_0_0_1_n_n_wf : DotDims.WF S6400x128 S128x1 S6400x1 [1] [0] [0] [1] [] []
  dot_S6400x128_S128x128_S6400x128_1_0_0_1_n_n_wf : DotDims.WF S6400x128 S128x128 S6400x128 [1] [0] [0] [1] [] []
  scatter_S50000_S800000x1_S800000_n_0_0_1_wf : ScatterDims.WF S50000 S800000x1 S800000 [] [0] [0] 1
  scatter_S50000x128_S800000x1_S800000x128_1_0_0_1_wf : ScatterDims.WF S50000x128 S800000x1 S800000x128 [1] [0] [0] 1
  dot_S2000x256_S256x128_S2000x128_1_0_0_1_n_n_wf : DotDims.WF S2000x256 S256x128 S2000x128 [1] [0] [0] [1] [] []
  dot_S2000x128_S128x1_S2000x1_1_0_0_1_n_n_wf : DotDims.WF S2000x128 S128x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S800000x128.size a
  hwx0_0 : ∀ i : grid0.Coords, EltTy.bits .bf16 = 32 ∨ (Rect.block (s := S800000x128) S6400x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x128.size a ≤ S800000x128.size a
  hwx0_1 : ∀ i : grid0.Coords, EltTy.bits .bf16 = 32 ∨ (Rect.block (s := S800000x128) S6400x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .bf16 = 32 ∨ (Rect.block (s := S256x128) S256x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S128x1.size a
  hwx0_4 : ∀ i : grid0.Coords, EltTy.bits .bf16 = 32 ∨ (Rect.block (s := S128x1) S128x1.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .bf16 = 32 ∨ (Rect.block (s := S128x128) S128x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .bf16 = 32 ∨ (Rect.block (s := S128x128) S128x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S6400x128.size a ≤ S800000x128.size a
  hwx0_10 : ∀ i : grid0.Coords, EltTy.bits .bf16 = 32 ∨ (Rect.block (s := S800000x128) S6400x128.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S6400x128.size a ≤ S800000x128.size a
  hwx0_11 : ∀ i : grid0.Coords, EltTy.bits .bf16 = 32 ∨ (Rect.block (s := S800000x128) S6400x128.size (cc0_transform_11 i) (hinb0_11 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S50000x1.size a
  hwx1_3 : ∀ i : grid1.Coords, EltTy.bits .f32 = 32 ∨ (Rect.block (s := S50000x1) S2000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x128.size a ≤ S256x128.size a
  hwx1_5 : ∀ i : grid1.Coords, EltTy.bits .bf16 = 32 ∨ (Rect.block (s := S256x128) S256x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x1.size a ≤ S128x1.size a
  hwx1_7 : ∀ i : grid1.Coords, EltTy.bits .bf16 = 32 ∨ (Rect.block (s := S128x1) S128x1.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x1.size a ≤ S1x1.size a
  hwx1_8 : ∀ i : grid1.Coords, EltTy.bits .f32 = 32 ∨ (Rect.block (s := S1x1) S1x1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x128.size a ≤ S50000x128.size a
  hwx1_9 : ∀ i : grid1.Coords, EltTy.bits .f32 = 32 ∨ (Rect.block (s := S50000x128) S2000x128.size (cc1_transform_9 i) (hinb1_9 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S6400x256_S256x128_S6400x128_1_0_0_1_n_n : DotDims S6400x256 S256x128 S6400x128 where
  lhsContracting := [1]
  rhsContracting := [0]
  lhsNonContracting := [0]
  rhsNonContracting := [1]
  lhsBatch := []
  rhsBatch := []
  wf := dot_S6400x256_S256x128_S6400x128_1_0_0_1_n_n_wf
def dot_S6400x128_S128x1_S6400x1_1_0_0_1_n_n : DotDims S6400x128 S128x1 S6400x1 where
  lhsContracting := [1]
  rhsContracting := [0]
  lhsNonContracting := [0]
  rhsNonContracting := [1]
  lhsBatch := []
  rhsBatch := []
  wf := dot_S6400x128_S128x1_S6400x1_1_0_0_1_n_n_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf

abbrev win0_0 : Pipeline.Window sig grid0 :=
  Pipeline.Window.ofSpec (Memref.whole main_v11) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S6400x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S128x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v22) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v26) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v27_0) S6400x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v27_1) S6400x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v42) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v47) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v48) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg0) S2000x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v49) S256x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v51) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v50) S128x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v52) S1x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v53) S2000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x256 : Shape := ⟨2, ![800000, 256]⟩
abbrev S1x128 : Shape := ⟨2, ![1, 128]⟩
abbrev S1x1 : Shape := ⟨2, ![1, 1]⟩
abbrev S50000 : Shape := ⟨1, ![50000]⟩
abbrev S50000x1 : Shape := ⟨2, ![50000, 1]⟩
abbrev S50000x256 : Shape := ⟨2, ![50000, 256]⟩

abbrev nBuf : Space → Nat
  | .hbm => 130
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S256x128, .f32⟩
  | 7 => ⟨S128, .f32⟩
  | 8 => ⟨S128x1, .f32⟩
  | 9 => ⟨S1, .f32⟩
  | 10 => ⟨S256x128, .f32⟩
  | 11 => ⟨S128, .f32⟩
  | 12 => ⟨S128x1, .f32⟩
  | 13 => ⟨S1, .f32⟩
  | 14 => ⟨S1x800000, .i32⟩
  | 15 => ⟨S800000, .i32⟩
  | 16 => ⟨S1x800000, .i32⟩
  | 17 => ⟨S800000, .i32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000x128, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x128, .f32⟩
  | 36 => ⟨S800000x256, .f32⟩
  | 37 => ⟨S800000x128, .f32⟩
  | 38 => ⟨S1x128, .f32⟩
  | 39 => ⟨S800000x128, .f32⟩
  | 40 => ⟨S800000x128, .f32⟩
  | 41 => ⟨S_, .f32⟩
  | 42 => ⟨S800000x128, .f32⟩
  | 43 => ⟨S800000x128, .f32⟩
  | 44 => ⟨S800000x1, .f32⟩
  | 45 => ⟨S1x1, .f32⟩
  | 46 => ⟨S800000x1, .f32⟩
  | 47 => ⟨S800000x1, .f32⟩
  | 48 => ⟨S800000, .f32⟩
  | 49 => ⟨S800000, .f32⟩
  | 50 => ⟨S800000, .f32⟩
  | 51 => ⟨S_, .f32⟩
  | 52 => ⟨S800000, .f32⟩
  | 53 => ⟨S800000, .f32⟩
  | 54 => ⟨S_, .f32⟩
  | 55 => ⟨S800000, .f32⟩
  | 56 => ⟨S800000, .f32⟩
  | 57 => ⟨S800000x128, .f32⟩
  | 58 => ⟨S1x128, .f32⟩
  | 59 => ⟨S800000x128, .f32⟩
  | 60 => ⟨S800000x128, .f32⟩
  | 61 => ⟨S800000x1, .f32⟩
  | 62 => ⟨S800000x128, .f32⟩
  | 63 => ⟨S800000x128, .f32⟩
  | 64 => ⟨S800000x128, .f32⟩
  | 65 => ⟨S1x128, .f32⟩
  | 66 => ⟨S800000x128, .f32⟩
  | 67 => ⟨S800000x128, .f32⟩
  | 68 => ⟨S800000x1, .f32⟩
  | 69 => ⟨S800000x128, .f32⟩
  | 70 => ⟨S800000x128, .f32⟩
  | 71 => ⟨S_, .f32⟩
  | 72 => ⟨S50000x128, .f32⟩
  | 73 => ⟨S800000x1, .i32⟩
  | 74 => ⟨S50000x128, .f32⟩
  | 75 => ⟨S_, .f32⟩
  | 76 => ⟨S50000x128, .f32⟩
  | 77 => ⟨S800000x1, .i32⟩
  | 78 => ⟨S50000x128, .f32⟩
  | 79 => ⟨S_, .f32⟩
  | 80 => ⟨S800000, .f32⟩
  | 81 => ⟨S_, .f32⟩
  | 82 => ⟨S50000, .f32⟩
  | 83 => ⟨S800000x1, .i32⟩
  | 84 => ⟨S50000, .f32⟩
  | 85 => ⟨S_, .f32⟩
  | 86 => ⟨S50000, .f32⟩
  | 87 => ⟨S50000, .f32⟩
  | 88 => ⟨S_, .f32⟩
  | 89 => ⟨S50000, .f32⟩
  | 90 => ⟨S800000x1, .i32⟩
  | 91 => ⟨S50000, .f32⟩
  | 92 => ⟨S_, .f32⟩
  | 93 => ⟨S50000, .f32⟩
  | 94 => ⟨S50000, .f32⟩
  | 95 => ⟨S50000x1, .f32⟩
  | 96 => ⟨S50000x128, .f32⟩
  | 97 => ⟨S50000x128, .f32⟩
  | 98 => ⟨S50000x1, .f32⟩
  | 99 => ⟨S50000x128, .f32⟩
  | 100 => ⟨S50000x128, .f32⟩
  | 101 => ⟨S50000x256, .f32⟩
  | 102 => ⟨S50000x128, .f32⟩
  | 103 => ⟨S1x128, .f32⟩
  | 104 => ⟨S50000x128, .f32⟩
  | 105 => ⟨S50000x128, .f32⟩
  | 106 => ⟨S_, .f32⟩
  | 107 => ⟨S50000x128, .f32⟩
  | 108 => ⟨S50000x128, .f32⟩
  | 109 => ⟨S50000x1, .f32⟩
  | 110 => ⟨S1x1, .f32⟩
  | 111 => ⟨S50000x1, .f32⟩
  | 112 => ⟨S50000x1, .f32⟩
  | 113 => ⟨S50000x1, .f32⟩
  | 114 => ⟨S50000x1, .f32⟩
  | 115 => ⟨S_, .f32⟩
  | 116 => ⟨S50000x1, .f32⟩
  | 117 => ⟨S50000x1, .f32⟩
  | 118 => ⟨S_, .f32⟩
  | 119 => ⟨S50000x1, .f32⟩
  | 120 => ⟨S50000x1, .f32⟩
  | 121 => ⟨S50000x128, .f32⟩
  | 122 => ⟨S50000x128, .f32⟩
  | 123 => ⟨S_, .f32⟩
  | 124 => ⟨S50000x1, .f32⟩
  | 125 => ⟨S50000x1, .f32⟩
  | 126 => ⟨S50000x128, .f32⟩
  | 127 => ⟨S50000x128, .f32⟩
  | _ => ⟨S50000x128, .f32⟩

abbrev hbmTy0_1 (i : Nat) : BufTy := match i % 128 with
  | 0 => ⟨S50000x128, .f32⟩
  | 1 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_1 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_call0_cst : Ref sig .tc := ⟨.hbm, 41, rfl⟩
abbrev main_call0_v0 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst : Ref sig .tc := ⟨.hbm, 51, rfl⟩
abbrev main_v31 : Ref sig .tc := ⟨.hbm, 52, rfl⟩
abbrev main_v32 : Ref sig .tc := ⟨.hbm, 53, rfl⟩
abbrev main_cst_3 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_4 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_5 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_6 : Ref sig .tc := ⟨.hbm, 79, rfl⟩
abbrev main_v55 : Ref sig .tc := ⟨.hbm, 80, rfl⟩
abbrev main_cst_7 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_8 : Ref sig .tc := ⟨.hbm, 85, rfl⟩
abbrev main_v59 : Ref sig .tc := ⟨.hbm, 86, rfl⟩
abbrev main_v60 : Ref sig .tc := ⟨.hbm, 87, rfl⟩
abbrev main_cst_9 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_10 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_call1_cst : Ref sig .tc := ⟨.hbm, 106, rfl⟩
abbrev main_call1_v0 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_11 : Ref sig .tc := ⟨.hbm, 115, rfl⟩
abbrev main_v84 : Ref sig .tc := ⟨.hbm, 116, rfl⟩
abbrev main_v85 : Ref sig .tc := ⟨.hbm, 117, rfl⟩
abbrev main_cst_12 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_cst_13 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x256_d1 : Shape.Concatenates [S800000x128, S800000x128] S800000x256 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  shapeCasts_S800000x1_S800000 : S800000x1.ShapeCasts S800000
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  gather_S50000x128_S800000x1_S800000x128_1_0_n_n_0_1_1128_wf : GatherDims.WF S50000x128 S800000x1 S800000x128 [1] [0] [] [0] [] 1 ![1, 128]
  dot_S800000x256_S256x128_S800000x128_1_0_0_1_n_n_wf : DotDims.WF S800000x256 S256x128 S800000x128 [1] [0] [0] [1] [] []
  dot_S800000x128_S128x1_S800000x1_1_0_0_1_n_n_wf : DotDims.WF S800000x128 S128x1 S800000x1 [1] [0] [0] [1] [] []
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x256_S256x128_S50000x128_1_0_0_1_n_n_wf : DotDims.WF S50000x256 S256x128 S50000x128 [1] [0] [0] [1] [] []
  dot_S50000x128_S128x1_S50000x1_1_0_0_1_n_n_wf : DotDims.WF S50000x128 S128x1 S50000x1 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.LibMatmulRead.lean ====
/-
  A matrix product read at an entry, for ANY contraction record of the "rows by columns" form.

  A record that contracts the left operand's second axis with the right operand's first and has no batch axis
  describes the textbook product of an `a × K` by a `K × b` array. At the ideal instance the product accumulated
  into an all-zero block has, at entry `(p, q)`, the value `Σ_k lhs[p, k] · rhs[k, q]` with `k` over `Fin K`:
  the accumulator's zero is the additive identity, and the record's contraction index set is `Fin K`.
  The record is a variable here, so one proof serves every product of this form in a program.
-/
import Idealize.ShloMosaic.Lib.ValueIdx
import Idealize.ShloMosaic.PureOps.Ideal.Laws

noncomputable section

namespace Idealize.ShloMosaic.MatmulRead

open Idealize.ShloMosaic Idealize.ShloMosaic.ValueIdx
open scoped BigOperators

variable {a K b : ℕ} (D : DotDims (⟨2, ![a, K]⟩ : Shape) (⟨2, ![K, b]⟩ : Shape) (⟨2, ![a, b]⟩ : Shape))

/-- "Rows by columns": the left operand's second axis is contracted with the right operand's first, each operand's
    other axis survives, and there is no batch axis. -/
structure RowsByCols : Prop where
  lc : D.lhsContracting = [1]
  rc : D.rhsContracting = [0]
  ln : D.lhsNonContracting = [0]
  rn : D.rhsNonContracting = [1]
  lb : D.lhsBatch = []
  rb : D.rhsBatch = []

/-- An index read at two equal positions gives equal coordinates. -/
private theorem val_congr {s : Shape} (j : s.Idx) (u v : Nat) (hu : u < s.rank) (hv : v < s.rank) (h : u = v) :
    (j ⟨u, hu⟩).val = (j ⟨v, hv⟩).val := by subst h; rfl

variable {D}

/-- The left operand is read in the result's row. -/
theorem lhsIdx_row (h : RowsByCols D) (j : (⟨2, ![a, b]⟩ : Shape).Idx) (κ : D.contr.Idx) :
    (D.lhsIdx j κ 0).val = (j 0).val := by
  have hb : (0 : Fin (⟨2, ![a, K]⟩ : Shape).rank) ∉ D.lhsBatch := by rw [h.lb]; exact List.not_mem_nil
  have hn : (0 : Fin (⟨2, ![a, K]⟩ : Shape).rank) ∈ D.lhsNonContracting := by rw [h.ln]; exact List.mem_singleton.mpr rfl
  unfold DotDims.lhsIdx
  rw [dif_neg hb, dif_pos hn]
  simp only [Fin.val_cast]
  exact val_congr j _ _ _ _ (by simp [h.lb, h.ln])

/-- The right operand is read in the result's column. -/
theorem rhsIdx_col (h : RowsByCols D) (j : (⟨2, ![a, b]⟩ : Shape).Idx) (κ : D.contr.Idx) :
    (D.rhsIdx j κ 1).val = (j 1).val := by
  have hb : (1 : Fin (⟨2, ![K, b]⟩ : Shape).rank) ∉ D.rhsBatch := by rw [h.rb]; exact List.not_mem_nil
  have hn : (1 : Fin (⟨2, ![K, b]⟩ : Shape).rank) ∈ D.rhsNonContracting := by rw [h.rn]; exact List.mem_singleton.mpr rfl
  unfold DotDims.rhsIdx
  rw [dif_neg hb, dif_pos hn]
  simp only [Fin.val_cast]
  exact val_congr j _ _ _ _ (by simp [h.lb, h.ln, h.rn])

/-- Into a zero accumulator, entry `(p, q)` of the product is `Σ_k lhs[p, k] · rhs[k, q]`. -/
theorem matmul_zero_ix2 (h : RowsByCols D) (hr : D.contr.rank = 1) (hs : D.contr.size ⟨0, by omega⟩ = K)
    (prec : Option ContractPrecision) {φ₁ φ₂ : FTy} (lhs : FVec Ideal (⟨2, ![a, K]⟩ : Shape) φ₁)
    (rhs : FVec Ideal (⟨2, ![K, b]⟩ : Shape) φ₂) (p : Fin a) (q : Fin b) :
    FloatOps.matmul D prec lhs rhs (constant (⟨2, ![a, b]⟩ : Shape) .f32 0x00000000#32) (ix2 p q)
      = ∑ k : Fin K, lhs (ix2 p k) * rhs (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact lhsIdx_row h _ _
    | ⟨1, _⟩ => exact (D.lhsIdx_val_of_single h.lc _ _).trans hk)
  have er : D.rhsIdx (ix2 p q) ((contrEquiv1 D K hr hs).symm k) = ix2 k q := funext fun ax => Fin.ext (by
    match ax with
    | ⟨0, _⟩ => exact (D.rhsIdx_val_of_single h.rc _ _).trans hk
    | ⟨1, _⟩ => exact rhsIdx_col h _ _)
  rw [el, er]

end Idealize.ShloMosaic.MatmulRead
-- ==== Proof.LibKeepdims.lean ====
/-
  Keepdims column forms read at an index, at the exact values: a lane sum [a, b] → [a] is the finite sum over the row;
  the cast of the vector of sums [a] → [a, 1] keeps each entry in its row; the broadcast of a column [a, 1] over the
  lanes [a, b] repeats the row's entry on every lane. With the row broadcast [1, b] → [a, b] these are all a row-wise
  normalization needs.
-/
import Idealize.ShloMosaic.Lib.ValueIdx
import Idealize.ShloMosaic.Lib.ValueLayout
import Idealize.ShloMosaic.PureOps.Ideal.Laws

namespace Cert.LibKeepdims

open Idealize.ShloMosaic Idealize.ShloMosaic.ValueIdx

variable {α : Type}

/-- An `[a]` array cast to the column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast over `b` lanes reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` array, at row `p`: the sum over the row's `b` entries. -/
theorem laneSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun c => by
      match c with
      | ⟨0, _⟩ => exact Fin.ext rfl
      | ⟨1, _⟩ => exact Fin.ext rfl))

end Cert.LibKeepdims
-- ==== Proof.Spec.lean ====
/-
  The mathematics of the gated two-direction graph convolution, one row at a time, on the extended reals.

  Every edge e = (src, dst) carries the two feature rows x[src] and x[dst]. A two-layer scorer reads the
  two rows joined into one row of 256 entries: a hidden layer  max(joined · W₁ + b₁, 0)  of 128 units and
  an output unit whose logistic is the edge's score in (0, 1). The edge's two messages are affine images
  of one feature row each, scaled by the score. After the messages have been summed into the nodes and
  divided by the clamped degrees, the SAME two-layer scorer, with other weights, reads the two summed rows
  of a node and gives the gate g that mixes them:  g · in + (1 − g) · out + x.

  Both programs compute exactly these expressions, in this order of operations, so no law of the
  extended reals beyond reading the operations entry by entry is needed; in particular nothing here asks an
  entry to be finite.
-/
import Idealize.ShloMosaic.PureOps.Ideal
import Idealize.ShloMosaic.Lib.ValueIdx

noncomputable section

open scoped BigOperators

namespace Cert.DirGate

open Idealize.ShloMosaic

/-- The two rows joined: `a` on positions 0 … 127, `b` on positions 128 … 255. -/
def joined (a b : Fin 128 → EReal) (k : Fin 256) : EReal :=
  if h : k.val < 128 then a ⟨k.val, h⟩ else b ⟨k.val - 128, by omega⟩

/-- Unit `j` of the hidden layer: the joined row against column `j` of the first weights, plus the bias,
    clamped below at the float zero. -/
def hidden (a b : Fin 128 → EReal) (W₁ : Fin 256 → Fin 128 → EReal) (b₁ : Fin 128 → EReal) (j : Fin 128) : EReal :=
  max ((∑ k : Fin 256, joined a b k * W₁ k j) + b₁ j) (Ideal.ofBits .f32 0x00000000#32)

/-- The scorer's value: the logistic of the hidden layer against the second weights, plus the bias. -/
def score (a b : Fin 128 → EReal) (W₁ : Fin 256 → Fin 128 → EReal) (b₁ : Fin 128 → EReal)
    (w₂ : Fin 128 → EReal) (b₂ : EReal) : EReal :=
  Ideal.logistic ((∑ j : Fin 128, hidden a b W₁ b₁ j * w₂ j) + b₂)

/-- Entry `o` of a message: the feature row against column `o` of the weights, plus the bias, times the score. -/
def message (x : Fin 128 → EReal) (W : Fin 128 → Fin 128 → EReal) (b : Fin 128 → EReal) (s : EReal)
    (o : Fin 128) : EReal :=
  ((∑ k : Fin 128, x k * W k o) + b o) * s

/-- A summed row divided by its node's clamped degree. -/
def normalized (raw : Fin 128 → EReal) (deg : EReal) (o : Fin 128) : EReal := Ideal.div (raw o) deg

/-- Entry `o` of a node's result: the two normalized rows mixed by the gate, plus the node's own row. -/
def fused (inRaw outRaw : Fin 128 → EReal) (inDeg outDeg : EReal) (x : Fin 128 → EReal)
    (W₁ : Fin 256 → Fin 128 → EReal) (b₁ : Fin 128 → EReal) (w₂ : Fin 128 → EReal) (b₂ : EReal)
    (o : Fin 128) : EReal :=
  (score (normalized inRaw inDeg) (normalized outRaw outDeg) W₁ b₁ w₂ b₂ * normalized inRaw inDeg o
    + (Ideal.ofBits .f32 0x3F800000#32 - score (normalized inRaw inDeg) (normalized outRaw outDeg) W₁ b₁ w₂ b₂)
        * normalized outRaw outDeg o)
  + x o

/-- The float word of 1.0 denotes the real 1. -/
theorem one_f32 : Ideal.ofBits .f32 0x3F800000#32 = (1 : EReal) := by
  simp [Ideal.ofBits, Ideal.ieee, -EReal.coe_mul]; norm_num

/-- The logistic spelt out with the float word of 1.0 for both ones:  1 / (1 + e^(−z)). -/
theorem logistic_spelt (z : EReal) :
    Ideal.div (Ideal.ofBits .f32 0x3F800000#32) (Ideal.ofBits .f32 0x3F800000#32 + Ideal.exp (-z)) = Ideal.logistic z := by
  rw [one_f32]; rfl

end Cert.DirGate

end
-- ==== Proof.KernelRows.lean ====
/-
  The kernel bodies' operations read at one entry of a block of R rows, for any number of rows R.

  Both kernel bodies are built from the same three pieces, each acting on every row of a block by itself:
  the join of two blocks of rows side by side; an affine layer (a block times a weight matrix, accumulated from
  zero, plus a bias row repeated on every row); and the two-layer scorer over the joined rows. Read at row p,
  each is the corresponding expression of the specification in the entries of row p alone. The extents 128 and
  256 are those of the feature rows and of a joined row.
-/
import Idealize.ShloMosaic.Lib.ValueIdx
import Idealize.ShloMosaic.Lib.ValueLayout
import Idealize.ShloMosaic.Lib.Pipeline.Value
import Idealize.ShloMosaic.PureOps.Ideal.Laws
import proofs.«139908_j19439021982026_2_alg».proof.Proof.LibMatmulRead
import proofs.«139908_j19439021982026_2_alg».proof.Proof.LibKeepdims
import proofs.«139908_j19439021982026_2_alg».proof.Proof.Spec

noncomputable section

open scoped BigOperators

namespace Cert.DirGate.Rows

open Idealize.ShloMosaic Idealize.ShloMosaic.ValueIdx Idealize.ShloMosaic.MatmulRead Cert.DirGate

variable {R : ℕ}

/-- Two blocks of rows joined side by side: row p of the join is the join of the two rows p. -/
theorem joined_apply (A B : (⟨2, ![R, 128]⟩ : Shape).Idx → EReal)
    (hc : Shape.Concatenates [(⟨2, ![R, 128]⟩ : Shape), ⟨2, ![R, 128]⟩] ⟨2, ![R, 256]⟩ 1) (p : Fin R) (k : Fin 256) :
    concatenate (⟨2, ![R, 256]⟩ : Shape) 1 [⟨⟨2, ![R, 128]⟩, A⟩, ⟨⟨2, ![R, 128]⟩, B⟩] hc (ix2 p k)
      = joined (fun k => A (ix2 p k)) (fun k => B (ix2 p k)) k := by
  unfold joined
  split
  · next h =>
    exact concatenate_pair_apply_left 1 A B hc (ix2 p k) rfl (ix2 p ⟨k.val, h⟩) (fun b => by
      match b with
      | ⟨0, _⟩ => rfl
      | ⟨1, _⟩ => rfl)
  · next h =>
    exact concatenate_pair_apply_right 1 A B hc (ix2 p k) rfl rfl (ix2 p ⟨k.val - 128, by omega⟩) (fun b hb => by
      match b with
      | ⟨0, _⟩ => rfl
      | ⟨1, _⟩ => exact absurd rfl hb) (by
      show (k.val - 128) + 128 = k.val
      omega)

/-- An affine layer at entry (p, o): row p against column o of the weights, plus entry o of the bias row. -/
theorem affine_apply {K N : ℕ} {φ₁ φ₂ : FTy}
    (D : DotDims (⟨2, ![R, K]⟩ : Shape) (⟨2, ![K, N]⟩ : Shape) (⟨2, ![R, N]⟩ : Shape)) (hD : RowsByCols D)
    (hr : D.contr.rank = 1) (hs : D.contr.size ⟨0, by omega⟩ = K)
    (X : FVec Ideal (⟨2, ![R, K]⟩ : Shape) φ₁) (W : FVec Ideal (⟨2, ![K, N]⟩ : Shape) φ₂)
    (b : FVec Ideal (⟨2, ![1, N]⟩ : Shape) .f32) (hb : (⟨2, ![1, N]⟩ : Shape).Broadcasts ⟨2, ![R, N]⟩)
    (p : Fin R) (o : Fin N) :
    addf (matmul D none X W (constant (F := Ideal) (⟨2, ![R, N]⟩ : Shape) .f32 0x00000000#32))
        (broadcastTo (⟨2, ![R, N]⟩ : Shape) b hb) (ix2 p o)
      = (∑ k : Fin K, X (ix2 p k) * W (ix2 k o)) + b (ix2 (0 : Fin 1) o) := by
  rw [addf_apply]
  refine congrArg₂ (· + ·) ?_ ?_
  · exact matmul_zero_ix2 hD hr hs none X W p o
  · exact broadcastTo_1b_ab_apply b hb p o

/-- The two-layer scorer at row p: the logistic of the clamped hidden layer of the joined rows p against the second
    weights, plus the bias. A change of float format between the layers does nothing to the values. -/
theorem score_apply {φ₁ φ₂ : FTy}
    (D₁ : DotDims (⟨2, ![R, 256]⟩ : Shape) (⟨2, ![256, 128]⟩ : Shape) (⟨2, ![R, 128]⟩ : Shape)) (h₁ : RowsByCols D₁)
    (hr₁ : D₁.contr.rank = 1) (hs₁ : D₁.contr.size ⟨0, by omega⟩ = 256)
    (D₂ : DotDims (⟨2, ![R, 128]⟩ : Shape) (⟨2, ![128, 1]⟩ : Shape) (⟨2, ![R, 1]⟩ : Shape)) (h₂ : RowsByCols D₂)
    (hr₂ : D₂.contr.rank = 1) (hs₂ : D₂.contr.size ⟨0, by omega⟩ = 128)
    (A B : (⟨2, ![R, 128]⟩ : Shape).Idx → EReal)
    (hc : Shape.Concatenates [(⟨2, ![R, 128]⟩ : Shape), ⟨2, ![R, 128]⟩] ⟨2, ![R, 256]⟩ 1)
    (W₁ : FVec Ideal (⟨2, ![256, 128]⟩ : Shape) φ₁) (b₁ : FVec Ideal (⟨2, ![1, 128]⟩ : Shape) .f32)
    (hb₁ : (⟨2, ![1, 128]⟩ : Shape).Broadcasts ⟨2, ![R, 128]⟩) (hlt : FTy.bf16.bits < FTy.f32.bits)
    (w₂ : FVec Ideal (⟨2, ![128, 1]⟩ : Shape) φ₂) (b₂ : FVec Ideal (⟨2, ![1, 1]⟩ : Shape) .f32)
    (hb₂ : (⟨2, ![1, 1]⟩ : Shape).Broadcasts ⟨2, ![R, 1]⟩) (p : Fin R) :
    logistic (addf (matmul D₂ none
        (truncf .bf16 (maximumf
          (addf (matmul D₁ none
              (concatenate (⟨2, ![R, 256]⟩ : Shape) 1 [⟨⟨2, ![R, 128]⟩, A⟩, ⟨⟨2, ![R, 128]⟩, B⟩] hc : FVec Ideal _ .bf16) W₁
              (constant (F := Ideal) (⟨2, ![R, 128]⟩ : Shape) .f32 0x00000000#32))
            (broadcastTo (⟨2, ![R, 128]⟩ : Shape) b₁ hb₁))
          (broadcast (⟨2, ![R, 128]⟩ : Shape) (Scalar.ofBits (F := Ideal) .f32 0x00000000#32))) hlt)
        w₂ (constant (F := Ideal) (⟨2, ![R, 1]⟩ : Shape) .f32 0x00000000#32))
      (broadcastTo (⟨2, ![R, 1]⟩ : Shape) b₂ hb₂)) (ix2 p (0 : Fin 1))
      = score (fun k => A (ix2 p k)) (fun k => B (ix2 p k)) (fun k j => W₁ (ix2 k j)) (fun j => b₁ (ix2 (0 : Fin 1) j))
          (fun j => w₂ (ix2 j (0 : Fin 1))) (b₂ (ix2 (0 : Fin 1) (0 : Fin 1))) := by
  unfold score
  refine congrArg Ideal.logistic ?_
  refine (affine_apply D₂ h₂ hr₂ hs₂ _ w₂ b₂ hb₂ p (0 : Fin 1)).trans ?_
  refine congrArg (· + b₂ (ix2 (0 : Fin 1) (0 : Fin 1))) (Finset.sum_congr rfl fun j _ => ?_)
  refine congrArg (· * w₂ (ix2 j (0 : Fin 1))) ?_
  unfold hidden
  refine congrArg (max · (Ideal.ofBits .f32 0x00000000#32)) ?_
  refine (affine_apply D₁ h₁ hr₁ hs₁ _ W₁ b₁ hb₁ p j).trans ?_
  refine congrArg (· + b₁ (ix2 (0 : Fin 1) j)) (Finset.sum_congr rfl fun k _ => ?_)
  exact congrArg (· * W₁ (ix2 k j)) (joined_apply A B hc p k)

end Cert.DirGate.Rows

end
-- ==== Proof.GatePayload.lean ====
/-
  What the node kernel's body stores, read at one entry of a block of 2000 nodes.

  The body divides each node's two summed message rows by the node's two clamped degrees, computes the node's
  gate with the scorer on the two normalized rows, mixes the rows by the gate and adds the node's own feature
  row. Entry (p, o) of the stored block is the specification's fused value of row p.
-/
import proofs.«139908_j19439021982026_2_alg».proof.Proof.Gen.KernelIdeal.Skeleton
import proofs.«139908_j19439021982026_2_alg».proof.Proof.KernelRows

noncomputable section

open scoped BigOperators

namespace Cert.DirGate.Gate

open Cert.KernelIdeal Cert.KernelIdeal.Gen
open Idealize.ShloMosaic Idealize.ShloMosaic.ValueIdx Idealize.ShloMosaic.MatmulRead Cert.DirGate Cert.DirGate.Rows

/-- The two products of the body are of an array of rows by a weight matrix. -/
theorem rows_by_cols_joined : RowsByCols dot_S2000x256_S256x128_S2000x128_1_0_0_1_n_n := ⟨rfl, rfl, rfl, rfl, rfl, rfl⟩
theorem rows_by_cols_unit : RowsByCols dot_S2000x128_S128x1_S2000x1_1_0_0_1_n_n := ⟨rfl, rfl, rfl, rfl, rfl, rfl⟩

/-- A summed row over its node's degree, entry (p, o). -/
theorem inNorm_payload (raw : FVec Ideal S2000x128 .f32) (deg : FVec Ideal S2000x1 .f32) (p : Fin 2000) (o : Fin 128) :
    k1_pay2 (F := Ideal) raw deg (ix2 p o) = normalized (fun o' => raw (ix2 p o')) (deg (ix2 p (0 : Fin 1))) o := by
  unfold k1_pay2 normalized
  simp only [shapeCast_self]
  exact (divf_apply (φ := .f32) _ _ (ix2 p o)).trans
    (congrArg (Ideal.div (raw (ix2 p o))) (Cert.LibKeepdims.broadcastTo_a1_ab_apply deg _ p o))

theorem outNorm_payload (raw : FVec Ideal S2000x128 .f32) (deg : FVec Ideal S2000x1 .f32) (p : Fin 2000) (o : Fin 128) :
    k1_pay3 (F := Ideal) raw deg (ix2 p o) = normalized (fun o' => raw (ix2 p o')) (deg (ix2 p (0 : Fin 1))) o := by
  unfold k1_pay3 normalized
  simp only [shapeCast_self]
  exact (divf_apply (φ := .f32) _ _ (ix2 p o)).trans
    (congrArg (Ideal.div (raw (ix2 p o))) (Cert.LibKeepdims.broadcastTo_a1_ab_apply deg _ p o))

variable (inRaw outRaw : FVec Ideal S2000x128 .f32) (inDeg outDeg : FVec Ideal S2000x1 .f32)
  (W₁ : FVec Ideal S256x128 .bf16) (b₁ : FVec Ideal S1x128 .f32) (w₂ : FVec Ideal S128x1 .bf16) (b₂ : FVec Ideal S1x1 .f32)

/-- The gate of node p of the block: the scorer on the node's two normalized rows. -/
theorem gate_payload (p : Fin 2000) :
    k1_pay4 (F := Ideal) inRaw inDeg outRaw outDeg W₁ b₁ w₂ b₂ (ix2 p (0 : Fin 1))
      = score (normalized (fun o => inRaw (ix2 p o)) (inDeg (ix2 p (0 : Fin 1))))
          (normalized (fun o => outRaw (ix2 p o)) (outDeg (ix2 p (0 : Fin 1))))
          (fun k j => W₁ (ix2 k j)) (fun j => b₁ (ix2 (0 : Fin 1) j)) (fun j => w₂ (ix2 j (0 : Fin 1)))
          (b₂ (ix2 (0 : Fin 1) (0 : Fin 1))) := by
  unfold k1_pay4
  simp only [shapeCast_self]
  refine (score_apply dot_S2000x256_S256x128_S2000x128_1_0_0_1_n_n rows_by_cols_joined rfl rfl
    dot_S2000x128_S128x1_S2000x1_1_0_0_1_n_n rows_by_cols_unit rfl rfl
    (truncf .bf16 (k1_pay2 (F := Ideal) inRaw inDeg) bitsLt_bf16_f32) (truncf .bf16 (k1_pay3 (F := Ideal) outRaw outDeg) bitsLt_bf16_f32)
    _ W₁ b₁ _ _ w₂ b₂ _ p).trans ?_
  have ha : (fun k : Fin 128 => (truncf .bf16 (k1_pay2 (F := Ideal) inRaw inDeg) bitsLt_bf16_f32 : FVec Ideal S2000x128 .bf16) (ix2 p k))
      = normalized (fun o => inRaw (ix2 p o)) (inDeg (ix2 p (0 : Fin 1))) := funext fun k => inNorm_payload inRaw inDeg p k
  have hb : (fun k : Fin 128 => (truncf .bf16 (k1_pay3 (F := Ideal) outRaw outDeg) bitsLt_bf16_f32 : FVec Ideal S2000x128 .bf16) (ix2 p k))
      = normalized (fun o => outRaw (ix2 p o)) (outDeg (ix2 p (0 : Fin 1))) := funext fun k => outNorm_payload outRaw outDeg p k
  rw [ha, hb]

/-- The stored value, entry (p, o): the two normalized rows mixed by the gate, plus the node's own row. -/
theorem result_payload (x : FVec Ideal S2000x128 .f32) (p : Fin 2000) (o : Fin 128) :
    k1_pay1 (F := Ideal) (k1_pay5 inRaw inDeg outRaw outDeg W₁ b₁ w₂ b₂) (k1_pay6 inRaw inDeg outRaw outDeg W₁ b₁ w₂ b₂) x (ix2 p o)
      = fused (fun o' => inRaw (ix2 p o')) (fun o' => outRaw (ix2 p o')) (inDeg (ix2 p (0 : Fin 1))) (outDeg (ix2 p (0 : Fin 1)))
          (fun o' => x (ix2 p o')) (fun k j => W₁ (ix2 k j)) (fun j => b₁ (ix2 (0 : Fin 1) j)) (fun j => w₂ (ix2 j (0 : Fin 1)))
          (b₂ (ix2 (0 : Fin 1) (0 : Fin 1))) o := by
  unfold k1_pay1 k1_pay5 k1_pay6 fused
  refine (addf_apply (φ := .f32) _ _ (ix2 p o)).trans ?_
  refine congrArg (· + x (ix2 p o)) ?_
  refine (addf_apply (φ := .f32) _ _ (ix2 p o)).trans ?_
  refine congrArg₂ (· + ·) ?_ ?_
  · refine (mulf_apply (φ := .f32) _ _ (ix2 p o)).trans ?_
    refine congrArg₂ (· * ·) ?_ (inNorm_payload inRaw inDeg p o)
    exact (Cert.LibKeepdims.broadcastTo_a1_ab_apply _ _ p o).trans (gate_payload inRaw outRaw inDeg outDeg W₁ b₁ w₂ b₂ p)
  · refine (mulf_apply (φ := .f32) _ _ (ix2 p o)).trans ?_
    refine congrArg₂ (· * ·) ?_ (outNorm_payload outRaw outDeg p o)
    refine (Cert.LibKeepdims.broadcastTo_a1_ab_apply _ _ p o).trans ?_
    refine (subf_apply (φ := .f32) _ _ (ix2 p (0 : Fin 1))).trans ?_
    exact congrArg (Ideal.ofBits .f32 0x3F800000#32 - ·) (gate_payload inRaw outRaw inDeg outDeg W₁ b₁ w₂ b₂ p)

end Cert.DirGate.Gate

end
-- ==== Proof.GateBlocks.lean ====
/-
  The node region's windows read off their arrays.

  The region's grid has 25 points; point t handles the 2000 nodes  2000·t … 2000·t + 1999. The five row windows
  (the two summed message arrays, the two degree columns, the nodes' own rows) and the output window move together
  along the rows; the four weight and bias windows stay at the origin and are whole arrays.
-/
import proofs.«139908_j19439021982026_2_alg».proof.Proof.PatchedFrameKernelIdeal
import proofs.«139908_j19439021982026_2_alg».proof.Proof.GatePayload
import Idealize.ShloMosaic.Lib.Pipeline.Value

set_option maxRecDepth 16384

noncomputable section

open scoped BigOperators

namespace Cert.DirGate.Gate

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat Cfg Window)
open Cert.DirGate

/-- The result array, row by row: row n is the fused value of node n's two summed rows, two degrees and own row. -/
def fusedArr (inRaw outRaw : S50000x128.Idx → EReal) (inDeg outDeg : S50000x1.Idx → EReal) (x : S50000x128.Idx → EReal)
    (W₁ : S256x128.Idx → EReal) (b₁ : S1x128.Idx → EReal) (w₂ : S128x1.Idx → EReal) (b₂ : S1x1.Idx → EReal) :
    S50000x128.Idx → EReal := fun i =>
  fused (fun o => inRaw (ix2 (i 0) o)) (fun o => outRaw (ix2 (i 0) o)) (inDeg (ix2 (i 0) (0 : Fin 1))) (outDeg (ix2 (i 0) (0 : Fin 1)))
    (fun o => x (ix2 (i 0) o)) (fun k j => W₁ (ix2 k j)) (fun j => b₁ (ix2 (0 : Fin 1) j)) (fun j => w₂ (ix2 j (0 : Fin 1)))
    (b₂ (ix2 (0 : Fin 1) (0 : Fin 1))) (i 1)

theorem origin : (![0, 0] : Fin 2 → Nat) = fun _ => 0 := funext fun a => by fin_cases a <;> rfl

/-! ## The index maps, decided over the grid -/

/-- The five row windows move with the output window along the rows, and no window moves along the columns. -/
theorem rows_move_together : ∀ t : Fin cfg1.N,
    win1_0.index t (0 : Fin 2) = win1_9.index t (0 : Fin 2) ∧ win1_0.index t (1 : Fin 2) = 0
    ∧ win1_1.index t (0 : Fin 2) = win1_9.index t (0 : Fin 2) ∧ win1_1.index t (1 : Fin 2) = 0
    ∧ win1_2.index t (0 : Fin 2) = win1_9.index t (0 : Fin 2) ∧ win1_2.index t (1 : Fin 2) = 0
    ∧ win1_3.index t (0 : Fin 2) = win1_9.index t (0 : Fin 2) ∧ win1_3.index t (1 : Fin 2) = 0
    ∧ win1_4.index t (0 : Fin 2) = win1_9.index t (0 : Fin 2) ∧ win1_4.index t (1 : Fin 2) = 0
    ∧ win1_9.index t (1 : Fin 2) = 0 ∧ win1_9.index t (0 : Fin 2) < 25 :=
  (by decide +kernel : ∀ t : Fin grid1.N, _)

/-- The weight and bias windows stay at the origin. -/
theorem weights_stay : ∀ t : Fin cfg1.N,
    (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0) :=
  (by decide +kernel : ∀ t : Fin grid1.N, _)

/-- Every block of rows is some point's. -/
theorem every_row_block : ∀ q : Fin 25, ∃ t : Fin cfg1.N, win1_9.index t (0 : Fin 2) = q.val :=
  (by decide +kernel : ∀ q : Fin 25, ∃ t : Fin grid1.N, win1_9.index t (0 : Fin 2) = q.val)

variable (V : (c : Dev nD) → (b : Ref sig .tc) → Buf (Elt Ideal) ((c : Thread nD τ).loc b)) (c : Dev nD)

/-! ## The windows' blocks read off their arrays -/

/-- Row p of a row window's block at point t is the row of its array that row p of the output block lands on. -/
theorem in_block (t : Fin cfg1.N) (p : Fin 2000) (k o : Fin 128) :
    (iblk1 V c 0 t : S2000x128.Idx → EReal) (ix2 p k)
      = (V c main_v42 : S50000x128.Idx → EReal) (ix2 ((((cfg1.win 9).blk t).view.emb (ix2 p o) : S50000x128.Idx) 0) k) := by
  obtain ⟨e0, e1, -⟩ := rows_move_together t
  show (V c main_v42 : S50000x128.Idx → EReal) (((cfg1.win 0).blk t).view.emb (ix2 p k)) = _
  refine congrArg (V c main_v42 : S50000x128.Idx → EReal) (funext fun a => Fin.ext ?_)
  match a with
  | ⟨0, _⟩ =>
    show win1_0.index t (0 : Fin 2) * 2000 + 1 * p.val = win1_9.index t (0 : Fin 2) * 2000 + 1 * p.val
    omega
  | ⟨1, _⟩ =>
    show win1_0.index t (1 : Fin 2) * 128 + 1 * k.val = k.val
    omega

theorem out_block (t : Fin cfg1.N) (p : Fin 2000) (k o : Fin 128) :
    (iblk1 V c 1 t : S2000x128.Idx → EReal) (ix2 p k)
      = (V c main_v46 : S50000x128.Idx → EReal) (ix2 ((((cfg1.win 9).blk t).view.emb (ix2 p o) : S50000x128.Idx) 0) k) := by
  obtain ⟨-, -, e0, e1, -⟩ := rows_move_together t
  show (V c main_v46 : S50000x128.Idx → EReal) (((cfg1.win 1).blk t).view.emb (ix2 p k)) = _
  refine congrArg (V c main_v46 : S50000x128.Idx → EReal) (funext fun a => Fin.ext ?_)
  match a with
  | ⟨0, _⟩ =>
    show win1_1.index t (0 : Fin 2) * 2000 + 1 * p.val = win1_9.index t (0 : Fin 2) * 2000 + 1 * p.val
    omega
  | ⟨1, _⟩ =>
    show win1_1.index t (1 : Fin 2) * 128 + 1 * k.val = k.val
    omega

theorem own_block (t : Fin cfg1.N) (p : Fin 2000) (k o : Fin 128) :
    (iblk1 V c 4 t : S2000x128.Idx → EReal) (ix2 p k)
      = (V c main_arg0 : S50000x128.Idx → EReal) (ix2 ((((cfg1.win 9).blk t).view.emb (ix2 p o) : S50000x128.Idx) 0) k) := by
  obtain ⟨-, -, -, -, -, -, -, -, e0, e1, -⟩ := rows_move_together t
  show (V c main_arg0 : S50000x128.Idx → EReal) (((cfg1.win 4).blk t).view.emb (ix2 p k)) = _
  refine congrArg (V c main_arg0 : S50000x128.Idx → EReal) (funext fun a => Fin.ext ?_)
  match a with
  | ⟨0, _⟩ =>
    show win1_4.index t (0 : Fin 2) * 2000 + 1 * p.val = win1_9.index t (0 : Fin 2) * 2000 + 1 * p.val
    omega
  | ⟨1, _⟩ =>
    show win1_4.index t (1 : Fin 2) * 128 + 1 * k.val = k.val
    omega

/-- Entry p of a degree column's block is the degree of the node that row p of the output block lands on. -/
theorem inDeg_block (t : Fin cfg1.N) (p : Fin 2000) (o : Fin 128) :
    (iblk1 V c 2 t : S2000x1.Idx → EReal) (ix2 p (0 : Fin 1))
      = (V c main_v47 : S50000x1.Idx → EReal) (ix2 ((((cfg1.win 9).blk t).view.emb (ix2 p o) : S50000x128.Idx) 0) (0 : Fin 1)) := by
  obtain ⟨-, -, -, -, e0, e1, -⟩ := rows_move_together t
  show (V c main_v47 : S50000x1.Idx → EReal) (((cfg1.win 2).blk t).view.emb (ix2 p (0 : Fin 1))) = _
  refine congrArg (V c main_v47 : S50000x1.Idx → EReal) (funext fun a => Fin.ext ?_)
  match a with
  | ⟨0, _⟩ =>
    show win1_2.index t (0 : Fin 2) * 2000 + 1 * p.val = win1_9.index t (0 : Fin 2) * 2000 + 1 * p.val
    omega
  | ⟨1, _⟩ =>
    show win1_2.index t (1 : Fin 2) * 1 + 1 * 0 = 0
    omega

theorem outDeg_block (t : Fin cfg1.N) (p : Fin 2000) (o : Fin 128) :
    (iblk1 V c 3 t : S2000x1.Idx → EReal) (ix2 p (0 : Fin 1))
      = (V c main_v48 : S50000x1.Idx → EReal) (ix2 ((((cfg1.win 9).blk t).view.emb (ix2 p o) : S50000x128.Idx) 0) (0 : Fin 1)) := by
  obtain ⟨-, -, -, -, -, -, e0, e1, -⟩ := rows_move_together t
  show (V c main_v48 : S50000x1.Idx → EReal) (((cfg1.win 3).blk t).view.emb (ix2 p (0 : Fin 1))) = _
  refine congrArg (V c main_v48 : S50000x1.Idx → EReal) (funext fun a => Fin.ext ?_)
  match a with
  | ⟨0, _⟩ =>
    show win1_3.index t (0 : Fin 2) * 2000 + 1 * p.val = win1_9.index t (0 : Fin 2) * 2000 + 1 * p.val
    omega
  | ⟨1, _⟩ =>
    show win1_3.index t (1 : Fin 2) * 1 + 1 * 0 = 0
    omega

/-- The column of an entry of the output block is the column of the array entry it lands on. -/
theorem out_column (t : Fin cfg1.N) (p : Fin 2000) (o : Fin 128) :
    (((cfg1.win 9).blk t).view.emb (ix2 p o) : S50000x128.Idx) 1 = o := by
  obtain ⟨-, -, -, -, -, -, -, -, -, -, e, -⟩ := rows_move_together t
  refine Fin.ext ?_
  show win1_9.index t (1 : Fin 2) * 128 + 1 * o.val = o.val
  omega

/-- Each weight or bias window's block is its whole array, at every point. -/
theorem whole_5 (t : Fin cfg1.N) : (iblk1 V c 5 t : S256x128.Idx → EReal) = V c main_v49 := by
  obtain ⟨⟨e0, e1⟩, -⟩ := weights_stay t
  funext y
  show (V c main_v49 : S256x128.Idx → EReal) (((cfg1.win 5).blk t).view.emb y) = _
  refine congrArg (V c main_v49 : S256x128.Idx → EReal) (funext fun a => Fin.ext ?_)
  match a with
  | ⟨0, _⟩ => show win1_5.index t (0 : Fin 2) * 256 + 1 * (y 0).val = (y 0).val; omega
  | ⟨1, _⟩ => show win1_5.index t (1 : Fin 2) * 128 + 1 * (y 1).val = (y 1).val; omega

theorem whole_6 (t : Fin cfg1.N) : (iblk1 V c 6 t : S1x128.Idx → EReal) = V c main_v51 := by
  obtain ⟨-, ⟨e0, e1⟩, -⟩ := weights_stay t
  funext y
  show (V c main_v51 : S1x128.Idx → EReal) (((cfg1.win 6).blk t).view.emb y) = _
  refine congrArg (V c main_v51 : S1x128.Idx → EReal) (funext fun a => Fin.ext ?_)
  match a with
  | ⟨0, _⟩ => show win1_6.index t (0 : Fin 2) * 1 + 1 * (y 0).val = (y 0).val; omega
  | ⟨1, _⟩ => show win1_6.index t (1 : Fin 2) * 128 + 1 * (y 1).val = (y 1).val; omega

theorem whole_7 (t : Fin cfg1.N) : (iblk1 V c 7 t : S128x1.Idx → EReal) = V c main_v50 := by
  obtain ⟨-, -, ⟨e0, e1⟩, -⟩ := weights_stay t
  funext y
  show (V c main_v50 : S128x1.Idx → EReal) (((cfg1.win 7).blk t).view.emb y) = _
  refine congrArg (V c main_v50 : S128x1.Idx → EReal) (funext fun a => Fin.ext ?_)
  match a with
  | ⟨0, _⟩ => show win1_7.index t (0 : Fin 2) * 128 + 1 * (y 0).val = (y 0).val; omega
  | ⟨1, _⟩ => show win1_7.index t (1 : Fin 2) * 1 + 1 * (y 1).val = (y 1).val; omega

theorem whole_8 (t : Fin cfg1.N) : (iblk1 V c 8 t : S1x1.Idx → EReal) = V c main_v52 := by
  obtain ⟨-, -, -, e0, e1⟩ := weights_stay t
  funext y
  show (V c main_v52 : S1x1.Idx → EReal) (((cfg1.win 8).blk t).view.emb y) = _
  refine congrArg (V c main_v52 : S1x1.Idx → EReal) (funext fun a => Fin.ext ?_)
  match a with
  | ⟨0, _⟩ => show win1_8.index t (0 : Fin 2) * 1 + 1 * (y 0).val = (y 0).val; omega
  | ⟨1, _⟩ => show win1_8.index t (1 : Fin 2) * 1 + 1 * (y 1).val = (y 1).val; omega

end Cert.DirGate.Gate

end
-- ==== Proof.GateArrays.lean ====
/-
  The node region's output array after the run.

  Point t writes back, into rows 2000·t … of the result array, the fused values of those nodes; every row of the
  array lies in exactly such a block; so after the last point the result array is, row by row, the fused array of
  the arrays the region finds.
-/
import proofs.«139908_j19439021982026_2_alg».proof.Proof.GateBlocks

set_option maxRecDepth 16384

noncomputable section

open scoped BigOperators

namespace Cert.DirGate.Gate

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat Cfg Window)
open Cert.DirGate

variable (V : (c : Dev nD) → (b : Ref sig .tc) → Buf (Elt Ideal) ((c : Thread nD τ).loc b)) (c : Dev nD)

/-- The fused array of the arrays the region finds. -/
abbrev resArr : S50000x128.Idx → EReal :=
  fusedArr (V c main_v42) (V c main_v46) (V c main_v47) (V c main_v48) (V c main_arg0) (V c main_v49) (V c main_v51)
    (V c main_v50) (V c main_v52)

/-- What point t writes back: rows 2000·t … of the fused array. -/
theorem flushed_res (t : Fin cfg1.N) :
    (dat1 V c).flushed 9 t = ((cfg1.win 9).blk t).view.read (Elt Ideal) (resArr V c) := by
  show (cfg1.win 9).cut (grid1.coords t) ((dat1 V c).after 9 t) = _
  rw [after1_9]
  unfold out1_9
  rw [View.canon_unit_zero origin]
  simp only [View.ld_unit_zero (S := S2000x128) origin, View.ld_unit_zero (S := S2000x1) origin,
    View.ld_unit_zero (S := S256x128) origin, View.ld_unit_zero (S := S1x128) origin,
    View.ld_unit_zero (S := S128x1) origin, View.ld_unit_zero (S := S1x1) origin]
  funext j
  obtain ⟨p, o, rfl⟩ : ∃ (p : Fin 2000) (o : Fin 128), j = ix2 p o := ⟨j 0, j 1, eq_ix2 j⟩
  refine (result_payload (iblk1 V c 0 t) (iblk1 V c 1 t) (iblk1 V c 2 t) (iblk1 V c 3 t) (iblk1 V c 5 t) (iblk1 V c 6 t)
    (iblk1 V c 7 t) (iblk1 V c 8 t) (iblk1 V c 4 t) p o).trans ?_
  show _ = resArr V c (((cfg1.win 9).blk t).view.emb (ix2 p o))
  have hi : (fun k : Fin 128 => (iblk1 V c 0 t : S2000x128.Idx → EReal) (ix2 p k))
      = fun k => (V c main_v42 : S50000x128.Idx → EReal) (ix2 ((((cfg1.win 9).blk t).view.emb (ix2 p o) : S50000x128.Idx) 0) k) :=
    funext fun k => in_block V c t p k o
  have ho : (fun k : Fin 128 => (iblk1 V c 1 t : S2000x128.Idx → EReal) (ix2 p k))
      = fun k => (V c main_v46 : S50000x128.Idx → EReal) (ix2 ((((cfg1.win 9).blk t).view.emb (ix2 p o) : S50000x128.Idx) 0) k) :=
    funext fun k => out_block V c t p k o
  have hx : (fun k : Fin 128 => (iblk1 V c 4 t : S2000x128.Idx → EReal) (ix2 p k))
      = fun k => (V c main_arg0 : S50000x128.Idx → EReal) (ix2 ((((cfg1.win 9).blk t).view.emb (ix2 p o) : S50000x128.Idx) 0) k) :=
    funext fun k => own_block V c t p k o
  unfold resArr fusedArr
  rw [hi, ho, hx, inDeg_block V c t p o, outDeg_block V c t p o, whole_5 V c t, whole_6 V c t, whole_7 V c t, whole_8 V c t,
    out_column t p o]

/-- A row of the array is in point t's block of the output window iff it is among rows 2000·t …, any column. -/
theorem mem_blk_res (t : Fin cfg1.N) (i : S50000x128.Idx) :
    i ∈ ((cfg1.win 9).blk t).view.set ↔ ∀ a : Fin 2, win1_9.index t a * S2000x128.size a ≤ (i a).val
      ∧ (i a).val < win1_9.index t a * S2000x128.size a + S2000x128.size a := by
  show i ∈ ((View.whole main_v53).slice (win1_9.rect t)).set ↔ _
  rw [View.set_slice_whole, Rect.mem_set_unit]
  exact Iff.rfl

/-- Every entry of the result array is in the block of the point that handles its row: point ⌊row / 2000⌋. -/
theorem cover_res (i : S50000x128.Idx) :
    ∃ t : Fin cfg1.N, (cfg1.win 9).flush t = true ∧ i ∈ ((cfg1.win 9).blk t).view.set := by
  have hi0 : (i 0).val < 50000 := (i 0).isLt
  have hi1 : (i 1).val < 128 := (i 1).isLt
  obtain ⟨t, ht⟩ := every_row_block ⟨(i 0).val / 2000, by omega⟩
  have ht' : win1_9.index t (0 : Fin 2) = (i 0).val / 2000 := ht
  obtain ⟨-, -, -, -, -, -, -, -, -, -, e1, -⟩ := rows_move_together t
  refine ⟨t, flush1_9 t, ?_⟩
  rw [mem_blk_res]
  intro a
  match a with
  | ⟨0, _⟩ =>
    show win1_9.index t (0 : Fin 2) * 2000 ≤ (i 0).val ∧ (i 0).val < win1_9.index t (0 : Fin 2) * 2000 + 2000
    omega
  | ⟨1, _⟩ =>
    show win1_9.index t (1 : Fin 2) * 128 ≤ (i 1).val ∧ (i 1).val < win1_9.index t (1 : Fin 2) * 128 + 128
    omega

/-- After the run the result array is the fused array of the arrays the region finds. -/
theorem final_res : (dat1 V c).arrAt 9 cfg1.N = resArr V c :=
  (dat1 V c).arrAt_eq_of_cover 9 (resArr V c) (fun t _ => flushed_res V c t) cover_res

end Cert.DirGate.Gate

end
-- ==== Proof.RefGate.lean ====
/-
  The node half of the reference, read one entry at a time.

  A node n carries two summed rows of 128 entries (row n of the two scatter-added arrays, kept as they are), its two
  clamped degrees (entry n of the two degree vectors, kept as they are) and its own feature row. Everything below is a
  function of these and of the gate's weights.

    normalized rows   p o = in-sum o / in-degree,  q o = out-sum o / out-degree  (a degree is spread over its row)
    joined row        position k < 128 is p k, position k ≥ 128 is q (k − 128)
    hidden unit j     max (joined · column j of the first gate weights + bias j, 0)
    logit             hidden · the second gate weights + their bias
    gate g            1 / (1 + e^(−logit)), the logistic of the logit, spread over the 128 entries of the row
    result entry o    (g · p o + (1 − g) · q o) + the node's own feature o

  No law of the extended reals is used: each stage is read at its index and the result is the specification's
  expression, operation for operation.
-/
import proofs.«139908_j19439021982026_2_alg».proof.Proof.Gen.ReferenceIdeal.Read
import proofs.«139908_j19439021982026_2_alg».proof.Proof.Spec

noncomputable section

open scoped BigOperators

namespace Cert.DirGate.Ref

open Cert.ReferenceIdeal Cert.ReferenceIdeal.Gen Cert.ReferenceIdeal.Read Idealize.ShloMosaic Idealize.ShloMosaic.ValueIdx Cert.DirGate

/-- Two indices of rank 2 with the same coordinates are the same index. -/
local macro "same_coords₂" : tactic =>
  `(tactic| exact funext fun a => by match a with | ⟨0, _⟩ => rfl | ⟨1, _⟩ => rfl)

/-- Two indices of rank 1 with the same coordinate are the same index. -/
local macro "same_coords₁" : tactic =>
  `(tactic| exact funext fun a => by match a with | ⟨0, _⟩ => rfl)

section Gate

variable (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal))
  (x5 : (⟨S128, .f32⟩ : BufTy).Contents (Elt Ideal)) (x6 : (⟨S256x128, .f32⟩ : BufTy).Contents (Elt Ideal)) (x7 : (⟨S128, .f32⟩ : BufTy).Contents (Elt Ideal)) (x8 : (⟨S128x1, .f32⟩ : BufTy).Contents (Elt Ideal)) (x9 : (⟨S1, .f32⟩ : BufTy).Contents (Elt Ideal))
  (x10 : (⟨S256x128, .f32⟩ : BufTy).Contents (Elt Ideal)) (x11 : (⟨S128, .f32⟩ : BufTy).Contents (Elt Ideal)) (x12 : (⟨S128x1, .f32⟩ : BufTy).Contents (Elt Ideal)) (x13 : (⟨S1, .f32⟩ : BufTy).Contents (Elt Ideal))

/-- Entry o of node n's normalized in-row: the in-sum divided by the node's clamped in-degree. -/
theorem normIn_apply (n : Fin 50000) (o : Fin 128) :
    val_main_v68 (F := Ideal) x0 x1 x2 x3 x6 x7 x8 x9 (ix2 n o) = normalized (fun o' => val_main_v51 (F := Ideal) x0 x1 x2 x3 x6 x7 x8 x9 (ix2 n o')) (val_main_v60 (F := Ideal) x1 (ix1 n)) o := by
  rw [val_main_v68_apply, val_main_v67_apply, val_main_v66_apply]
  simp only [Ideal.hostDivf_def]
  unfold normalized
  exact congrArg (fun t : EReal => Ideal.div (val_main_v51 (F := Ideal) x0 x1 x2 x3 x6 x7 x8 x9 (ix2 n o)) t)
    (congrArg (val_main_v60 (F := Ideal) x1) (by same_coords₁))

/-- Entry o of node n's normalized out-row: the out-sum divided by the node's clamped out-degree. -/
theorem normOut_apply (n : Fin 50000) (o : Fin 128) :
    val_main_v71 (F := Ideal) x0 x1 x4 x5 x6 x7 x8 x9 (ix2 n o) = normalized (fun o' => val_main_v54 (F := Ideal) x0 x1 x4 x5 x6 x7 x8 x9 (ix2 n o')) (val_main_v65 (F := Ideal) x1 (ix1 n)) o := by
  rw [val_main_v71_apply, val_main_v70_apply, val_main_v69_apply]
  simp only [Ideal.hostDivf_def]
  unfold normalized
  exact congrArg (fun t : EReal => Ideal.div (val_main_v54 (F := Ideal) x0 x1 x4 x5 x6 x7 x8 x9 (ix2 n o)) t)
    (congrArg (val_main_v65 (F := Ideal) x1) (by same_coords₁))

/-- Row n of the concatenation of the two normalized arrays is the two normalized rows joined: a position below 128
    falls in the first piece, at the same position; a position from 128 on falls in the second piece, 128 less. -/
theorem joinedNorm_apply (n : Fin 50000) (k : Fin 256) :
    val_main_v72 (F := Ideal) x0 x1 x2 x3 x4 x5 x6 x7 x8 x9 (ix2 n k) = joined (normalized (fun o' => val_main_v51 (F := Ideal) x0 x1 x2 x3 x6 x7 x8 x9 (ix2 n o')) (val_main_v60 (F := Ideal) x1 (ix1 n))) (normalized (fun o' => val_main_v54 (F := Ideal) x0 x1 x4 x5 x6 x7 x8 x9 (ix2 n o')) (val_main_v65 (F := Ideal) x1 (ix1 n))) k := by
  have hk : k.val < 256 := k.isLt
  unfold joined
  by_cases h : k.val < 128
  · rw [dif_pos h, ← normIn_apply x0 x1 x2 x3 x6 x7 x8 x9 n ⟨k.val, h⟩]
    unfold val_main_v72
    generalize val_main_v68 (F := Ideal) x0 x1 x2 x3 x6 x7 x8 x9 = y₁
    generalize val_main_v71 (F := Ideal) x0 x1 x4 x5 x6 x7 x8 x9 = y₂
    exact concatenate_pair_apply_left 1 y₁ y₂ concatenates_S50000x128_S50000x128_S50000x256_d1 (ix2 n k) rfl
      (ix2 n (⟨k.val, h⟩ : Fin 128)) (fun b => by
        match b with
        | ⟨0, _⟩ => rfl
        | ⟨1, _⟩ => rfl)
  · rw [dif_neg h, ← normOut_apply x0 x1 x4 x5 x6 x7 x8 x9 n ⟨k.val - 128, by omega⟩]
    unfold val_main_v72
    generalize val_main_v68 (F := Ideal) x0 x1 x2 x3 x6 x7 x8 x9 = y₁
    generalize val_main_v71 (F := Ideal) x0 x1 x4 x5 x6 x7 x8 x9 = y₂
    exact concatenate_pair_apply_right 1 y₁ y₂ concatenates_S50000x128_S50000x128_S50000x256_d1 (ix2 n k) rfl rfl
      (ix2 n (⟨k.val - 128, by omega⟩ : Fin 128))
      (fun b hb => by
        match b with
        | ⟨0, _⟩ => rfl
        | ⟨1, _⟩ => exact absurd rfl hb)
      (by show (k.val - 128) + 128 = k.val; omega)

/-- Hidden unit j of node n: the joined normalized row against column j of the first gate weights (a sum over the
    256 positions), plus bias j, clamped below at zero. -/
theorem gateHidden_apply (n : Fin 50000) (j : Fin 128) :
    val_main_v77 (F := Ideal) x0 x1 x2 x3 x4 x5 x6 x7 x8 x9 x10 x11 (ix2 n j) = hidden (normalized (fun o' => val_main_v51 (F := Ideal) x0 x1 x2 x3 x6 x7 x8 x9 (ix2 n o')) (val_main_v60 (F := Ideal) x1 (ix1 n))) (normalized (fun o' => val_main_v54 (F := Ideal) x0 x1 x4 x5 x6 x7 x8 x9 (ix2 n o')) (val_main_v65 (F := Ideal) x1 (ix1 n))) (fun k j => x10 (ix2 k j)) (fun j => x11 (ix1 j)) j := by
  rw [val_main_v77_apply, val_main_v76_apply, val_main_v73_apply, val_main_v75_apply, val_main_v74_apply,
    val_main_call1_v0_apply, val_main_call1_cst_apply]
  simp only [Ideal.maximumf_def, Ideal.addf_def, Ideal.ofBits_def]
  unfold hidden
  refine congrArg₂ (fun s t : EReal => max (s + t) (Ideal.ofBits .f32 0x00000000#32))
    (Finset.sum_congr rfl fun k _ => ?_) ?_
  · exact congrArg₂ (fun s t : EReal => s * t)
      ((congrArg (val_main_v72 (F := Ideal) x0 x1 x2 x3 x4 x5 x6 x7 x8 x9) (by same_coords₂)).trans
        (joinedNorm_apply x0 x1 x2 x3 x4 x5 x6 x7 x8 x9 n k))
      (congrArg x10 (by same_coords₂))
  · exact congrArg x11 (by same_coords₁)

/-- The gate g of node n is the scorer's value on the node's two normalized rows: the hidden units against the second
    gate weights plus their bias, negated, exponentiated, one added, and one divided by the result. -/
theorem gate_apply (n : Fin 50000) :
    val_main_v87 (F := Ideal) x0 x1 x2 x3 x4 x5 x6 x7 x8 x9 x10 x11 x12 x13 (ix2 n (0 : Fin 1)) = score (normalized (fun o' => val_main_v51 (F := Ideal) x0 x1 x2 x3 x6 x7 x8 x9 (ix2 n o')) (val_main_v60 (F := Ideal) x1 (ix1 n))) (normalized (fun o' => val_main_v54 (F := Ideal) x0 x1 x4 x5 x6 x7 x8 x9 (ix2 n o')) (val_main_v65 (F := Ideal) x1 (ix1 n))) (fun k j => x10 (ix2 k j)) (fun j => x11 (ix1 j)) (fun j => x12 (ix2 j (0 : Fin 1))) (x13 (ix1 (0 : Fin 1))) := by
  have hlogit : val_main_v81 (F := Ideal) x0 x1 x2 x3 x4 x5 x6 x7 x8 x9 x10 x11 x12 x13 (ix2 n (0 : Fin 1))
      = (∑ j : Fin 128, hidden (normalized (fun o' => val_main_v51 (F := Ideal) x0 x1 x2 x3 x6 x7 x8 x9 (ix2 n o')) (val_main_v60 (F := Ideal) x1 (ix1 n))) (normalized (fun o' => val_main_v54 (F := Ideal) x0 x1 x4 x5 x6 x7 x8 x9 (ix2 n o')) (val_main_v65 (F := Ideal) x1 (ix1 n))) (fun k j => x10 (ix2 k j)) (fun j => x11 (ix1 j)) j * x12 (ix2 j (0 : Fin 1))) + x13 (ix1 (0 : Fin 1)) := by
    rw [val_main_v81_apply, val_main_v78_apply, val_main_v80_apply, val_main_v79_apply]
    simp only [Ideal.addf_def]
    refine congrArg₂ (fun s t : EReal => s + t) (Finset.sum_congr rfl fun j _ => ?_) ?_
    · exact congrArg₂ (fun s t : EReal => s * t)
        ((congrArg (val_main_v77 (F := Ideal) x0 x1 x2 x3 x4 x5 x6 x7 x8 x9 x10 x11) (by same_coords₂)).trans
          (gateHidden_apply x0 x1 x2 x3 x4 x5 x6 x7 x8 x9 x10 x11 n j))
        (congrArg x12 (by same_coords₂))
    · exact congrArg x13 (by same_coords₁)
  rw [val_main_v87_apply, val_main_v86_apply, val_main_cst_12_apply, val_main_v85_apply, val_main_v84_apply,
    val_main_cst_11_apply, val_main_v83_apply, val_main_v82_apply, hlogit]
  simp only [Ideal.hostDivf_def, Ideal.addf_def, Ideal.hostUnary_exp_def, Ideal.hostNegf_def, Ideal.negf_def,
    Ideal.ofBits_def]
  exact logistic_spelt _

end Gate

/-- Entry o of node n's result: the gate times the normalized in-row, plus one minus the gate times the normalized
    out-row, plus the node's own feature. -/
theorem result_apply (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal))
    (x5 : (⟨S128, .f32⟩ : BufTy).Contents (Elt Ideal)) (x6 : (⟨S256x128, .f32⟩ : BufTy).Contents (Elt Ideal)) (x7 : (⟨S128, .f32⟩ : BufTy).Contents (Elt Ideal)) (x8 : (⟨S128x1, .f32⟩ : BufTy).Contents (Elt Ideal)) (x9 : (⟨S1, .f32⟩ : BufTy).Contents (Elt Ideal))
    (x10 : (⟨S256x128, .f32⟩ : BufTy).Contents (Elt Ideal)) (x11 : (⟨S128, .f32⟩ : BufTy).Contents (Elt Ideal)) (x12 : (⟨S128x1, .f32⟩ : BufTy).Contents (Elt Ideal)) (x13 : (⟨S1, .f32⟩ : BufTy).Contents (Elt Ideal))
    (n : Fin 50000) (o : Fin 128) :
    val_main_v95 (F := Ideal) x0 x1 x2 x3 x4 x5 x6 x7 x8 x9 x10 x11 x12 x13 (ix2 n o)
      = fused (fun o' => val_main_v51 (F := Ideal) x0 x1 x2 x3 x6 x7 x8 x9 (ix2 n o'))
              (fun o' => val_main_v54 (F := Ideal) x0 x1 x4 x5 x6 x7 x8 x9 (ix2 n o'))
              (val_main_v60 (F := Ideal) x1 (ix1 n)) (val_main_v65 (F := Ideal) x1 (ix1 n))
              (fun o' => x0 (ix2 n o'))
              (fun k j => x10 (ix2 k j)) (fun j => x11 (ix1 j)) (fun j => x12 (ix2 j (0 : Fin 1))) (x13 (ix1 (0 : Fin 1))) o := by
  have hg : val_main_v87 (F := Ideal) x0 x1 x2 x3 x4 x5 x6 x7 x8 x9 x10 x11 x12 x13 (idx_main_v88 (ix2 n o)) = _ :=
    (congrArg (val_main_v87 (F := Ideal) x0 x1 x2 x3 x4 x5 x6 x7 x8 x9 x10 x11 x12 x13) (show idx_main_v88 (ix2 n o) = ix2 n (0 : Fin 1) by same_coords₂)).trans
      (gate_apply x0 x1 x2 x3 x4 x5 x6 x7 x8 x9 x10 x11 x12 x13 n)
  have hg' : val_main_v87 (F := Ideal) x0 x1 x2 x3 x4 x5 x6 x7 x8 x9 x10 x11 x12 x13 (idx_main_v92 (ix2 n o)) = _ :=
    (congrArg (val_main_v87 (F := Ideal) x0 x1 x2 x3 x4 x5 x6 x7 x8 x9 x10 x11 x12 x13) (show idx_main_v92 (ix2 n o) = ix2 n (0 : Fin 1) by same_coords₂)).trans
      (gate_apply x0 x1 x2 x3 x4 x5 x6 x7 x8 x9 x10 x11 x12 x13 n)
  rw [val_main_v95_apply, val_main_v94_apply, val_main_v89_apply, val_main_v88_apply, hg, val_main_v93_apply,
    val_main_v92_apply, val_main_v91_apply, hg', val_main_v90_apply, val_main_cst_13_apply,
    normIn_apply, normOut_apply]
  simp only [Ideal.addf_def, Ideal.mulf_def, Ideal.subf_def, Ideal.ofBits_def]
  rfl

end Cert.DirGate.Ref

end
-- ==== Proof.HostStagesGate.lean ====
/-
  What the gate region finds in its input arrays, as terms of the arguments of @main and of the edge region's two
  results, at the exact values (a float an extended real, a change of float format the identity).

  Between the two regions the program counts, for every node, the edges that arrive and the edges that leave, never
  letting a count fall below one, and lays each count out as one column; it sums the edge region's two message arrays
  into the nodes they point to (the messages along an edge into the edge's target, the messages against it into its
  source); and it lays the gate's weights out: the matrices as they are, the bias vector as one row. The edge list's two
  rows were split before the edge region, which leaves them as they were.

  The reference performs the same operations on the same arguments, so each array equals the reference's term for it.
-/
import proofs.«139908_j19439021982026_2_alg».proof.Proof.PatchedFrameKernelIdeal
import proofs.«139908_j19439021982026_2_alg».proof.Proof.Gen.ReferenceIdeal.Read
import Idealize.ShloMosaic.Lib.StableHlo.Run
import Idealize.ShloMosaic.Lib.ValueIdx
import Idealize.ShloMosaic.Lib.ValueLayout
import Idealize.ShloMosaic.Lib.Pipeline.Value

noncomputable section

namespace Cert.DirGate.Host

open Cert.KernelIdeal Cert.KernelIdeal.Gen Cert.KernelIdeal.GenP
open Idealize.ShloMosaic Idealize.ShloMosaic.TcCoe Idealize.ShloMosaic.ValueIdx
open Idealize.SL.Sem

variable (m : (ℓ : Loc nD τ sig) → Buf (Elt Ideal) ℓ) (ρ : Dev nD → PrngReg) (c : Dev nD)

/-- A vector laid out as one column reads, at row p, the vector's entry p. -/
theorem column_read {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-! ## The edge list's two rows after the edge region -/

/-- The source node of every edge, as the edge region's exit leaves it. -/
theorem src_ids :
    (W2 m ρ c (Proc.devRef .tc main_v1) : S800000.Idx → BitVec 32)
      = Cert.ReferenceIdeal.Read.val_main_v1 (F := Ideal) (m ((c : Thread nD τ).loc main_arg1)) := by
  refine (W2_of_ne m ρ c main_v1 (by decide)).trans ?_
  show StableHlo.after hostOps0 (W0 m ρ c) (Proc.devRef .tc main_v1) = _
  after_results
  rfl

/-- The target node of every edge, as the edge region's exit leaves it. -/
theorem dst_ids :
    (W2 m ρ c (Proc.devRef .tc main_v3) : S800000.Idx → BitVec 32)
      = Cert.ReferenceIdeal.Read.val_main_v3 (F := Ideal) (m ((c : Thread nD τ).loc main_arg1)) := by
  refine (W2_of_ne m ρ c main_v3 (by decide)).trans ?_
  show StableHlo.after hostOps0 (W0 m ρ c) (Proc.devRef .tc main_v3) = _
  after_results
  rfl

/-! ## The degrees -/

/-- The number of edges arriving at each node, never below one, as one column. -/
theorem in_degree (n : Fin 50000) :
    (V3 m ρ c main_v47 : S50000x1.Idx → EReal) (ix2 n (0 : Fin 1))
      = Cert.ReferenceIdeal.Read.val_main_v60 (F := Ideal) (m ((c : Thread nD τ).loc main_arg1)) (ix1 n) := by
  have e : (V3 m ρ c main_v47 : S50000x1.Idx → EReal)
      = shapeCast S50000x1 (Cert.ReferenceIdeal.Read.val_main_v60 (F := Ideal) (m ((c : Thread nD τ).loc main_arg1)) : S50000.Idx → EReal)
          Gen.shapeCasts_S50000_S50000x1 := by
    show StableHlo.after hostOps1 (W2 m ρ c) (Proc.devRef .tc main_v47) = _
    after_results_simp
    rw [dst_ids m ρ c]
    rfl
  rw [e]
  exact column_read _ _ n 0

/-- The number of edges leaving each node, never below one, as one column. -/
theorem out_degree (n : Fin 50000) :
    (V3 m ρ c main_v48 : S50000x1.Idx → EReal) (ix2 n (0 : Fin 1))
      = Cert.ReferenceIdeal.Read.val_main_v65 (F := Ideal) (m ((c : Thread nD τ).loc main_arg1)) (ix1 n) := by
  have e : (V3 m ρ c main_v48 : S50000x1.Idx → EReal)
      = shapeCast S50000x1 (Cert.ReferenceIdeal.Read.val_main_v65 (F := Ideal) (m ((c : Thread nD τ).loc main_arg1)) : S50000.Idx → EReal)
          Gen.shapeCasts_S50000_S50000x1 := by
    show StableHlo.after hostOps1 (W2 m ρ c) (Proc.devRef .tc main_v48) = _
    after_results_simp
    rw [src_ids m ρ c]
    rfl
  rw [e]
  exact column_read _ _ n 0

/-! ## The summed messages -/

/-- The messages along the edges summed into the edges' target nodes: the edge region's first result, row e added to
    the row of edge e's target. -/
theorem in_sums :
    (V3 m ρ c main_v42 : S50000x128.Idx → EReal)
      = Idealize.ShloMosaic.Host.scatterAdd (F := Ideal) (φ := .f32) Cert.ReferenceIdeal.scatter_S50000x128_S800000x1_S800000x128_1_0_0_1
          (Cert.ReferenceIdeal.Read.val_main_v49 (F := Ideal))
          (Cert.ReferenceIdeal.Read.val_main_v50 (F := Ideal) (m ((c : Thread nD τ).loc main_arg1)))
          ((dat0 (V1 m ρ) c).arrAt 10 cfg0.N) := by
  show StableHlo.after hostOps1 (W2 m ρ c) (Proc.devRef .tc main_v42) = _
  after_results_simp
  rw [dst_ids m ρ c, show W2 m ρ c (Proc.devRef .tc main_v27_0) = (dat0 (V1 m ρ) c).arrAt 10 cfg0.N from W2_arr m ρ c 10]
  rfl

/-- The messages against the edges summed into the edges' source nodes: the edge region's second result, row e added
    to the row of edge e's source. -/
theorem out_sums :
    (V3 m ρ c main_v46 : S50000x128.Idx → EReal)
      = Idealize.ShloMosaic.Host.scatterAdd (F := Ideal) (φ := .f32) Cert.ReferenceIdeal.scatter_S50000x128_S800000x1_S800000x128_1_0_0_1
          (Cert.ReferenceIdeal.Read.val_main_v52 (F := Ideal))
          (Cert.ReferenceIdeal.Read.val_main_v53 (F := Ideal) (m ((c : Thread nD τ).loc main_arg1)))
          ((dat0 (V1 m ρ) c).arrAt 11 cfg0.N) := by
  show StableHlo.after hostOps1 (W2 m ρ c) (Proc.devRef .tc main_v46) = _
  after_results_simp
  rw [src_ids m ρ c, show W2 m ρ c (Proc.devRef .tc main_v27_1) = (dat0 (V1 m ρ) c).arrAt 11 cfg0.N from W2_arr m ρ c 11]
  rfl

/-! ## The features and the gate's weights -/

/-- The node features reach the gate region as launched: no operation and no region writes them. -/
theorem features_kept :
    (V3 m ρ c main_arg0 : S50000x128.Idx → EReal) = m ((c : Thread nD τ).loc main_arg0) := by
  show StableHlo.after hostOps1 (W2 m ρ c) (Proc.devRef .tc main_arg0) = _
  after_results_simp
  refine (W2_of_ne m ρ c main_arg0 (by decide)).trans ?_
  show StableHlo.after hostOps0 (W0 m ρ c) (Proc.devRef .tc main_arg0) = _
  after_results_simp

/-- The gate's first weights, as launched. -/
theorem gate_w1 :
    (V3 m ρ c main_v49 : S256x128.Idx → EReal) = m ((c : Thread nD τ).loc main_arg10) := by
  show StableHlo.after hostOps1 (W2 m ρ c) (Proc.devRef .tc main_v49) = _
  after_results_simp
  rw [show W2 m ρ c (Proc.devRef .tc main_arg10) = m ((c : Thread nD τ).loc main_arg10) from by
    refine (W2_of_ne m ρ c main_arg10 (by decide)).trans ?_
    show StableHlo.after hostOps0 (W0 m ρ c) (Proc.devRef .tc main_arg10) = _
    after_results_simp]
  rfl

/-- The gate's second weights, as launched. -/
theorem gate_w2 :
    (V3 m ρ c main_v50 : S128x1.Idx → EReal) = m ((c : Thread nD τ).loc main_arg12) := by
  show StableHlo.after hostOps1 (W2 m ρ c) (Proc.devRef .tc main_v50) = _
  after_results_simp
  rw [show W2 m ρ c (Proc.devRef .tc main_arg12) = m ((c : Thread nD τ).loc main_arg12) from by
    refine (W2_of_ne m ρ c main_arg12 (by decide)).trans ?_
    show StableHlo.after hostOps0 (W0 m ρ c) (Proc.devRef .tc main_arg12) = _
    after_results_simp]
  rfl

/-- The gate's first bias as one row: column o holds the vector's entry o. -/
theorem gate_b1 (o : Fin 128) :
    (V3 m ρ c main_v51 : S1x128.Idx → EReal) (ix2 (0 : Fin 1) o) = m ((c : Thread nD τ).loc main_arg11) (ix1 o) := by
  have e : (V3 m ρ c main_v51 : S1x128.Idx → EReal)
      = shapeCast S1x128 (m ((c : Thread nD τ).loc main_arg11) : S128.Idx → EReal) Gen.shapeCasts_S128_S1x128 := by
    show StableHlo.after hostOps1 (W2 m ρ c) (Proc.devRef .tc main_v51) = _
    after_results_simp
    rw [show W2 m ρ c (Proc.devRef .tc main_arg11) = m ((c : Thread nD τ).loc main_arg11) from by
      refine (W2_of_ne m ρ c main_arg11 (by decide)).trans ?_
      show StableHlo.after hostOps0 (W0 m ρ c) (Proc.devRef .tc main_arg11) = _
      after_results_simp]
    rfl
  rw [e]
  exact shapeCast_a_1a_apply _ _ 0 o

/-- The gate's second bias, one number, as a one-by-one array. -/
theorem gate_b2 :
    (V3 m ρ c main_v52 : S1x1.Idx → EReal) (ix2 (0 : Fin 1) (0 : Fin 1)) = m ((c : Thread nD τ).loc main_arg13) (ix1 (0 : Fin 1)) := by
  have e : (V3 m ρ c main_v52 : S1x1.Idx → EReal)
      = shapeCast S1x1 (m ((c : Thread nD τ).loc main_arg13) : S1.Idx → EReal) Gen.shapeCasts_S1_S1x1 := by
    show StableHlo.after hostOps1 (W2 m ρ c) (Proc.devRef .tc main_v52) = _
    after_results_simp
    rw [show W2 m ρ c (Proc.devRef .tc main_arg13) = m ((c : Thread nD τ).loc main_arg13) from by
      refine (W2_of_ne m ρ c main_arg13 (by decide)).trans ?_
      show StableHlo.after hostOps0 (W0 m ρ c) (Proc.devRef .tc main_arg13) = _
      after_results_simp]
    rfl
  rw [e]
  exact shapeCast_a_1a_apply _ _ 0 0

end Cert.DirGate.Host

end
-- ==== Proof.EdgePayload.lean ====
/-
  What the edge kernel's body stores, read at one entry of a block of 6400 edges.

  The body loads the two blocks of gathered feature rows, the scorer's weights and the two message layers'
  weights, computes every edge's score from its two rows, and stores the two messages of every edge: an affine
  image of one feature row, times the edge's score. Entry (p, o) of either stored block is therefore the
  specification's message of row p — nothing of any other row enters it.
-/
import proofs.«139908_j19439021982026_2_alg».proof.Proof.Gen.KernelIdeal.Skeleton
import proofs.«139908_j19439021982026_2_alg».proof.Proof.KernelRows

noncomputable section

open scoped BigOperators

namespace Cert.DirGate.Edge

open Cert.KernelIdeal Cert.KernelIdeal.Gen
open Idealize.ShloMosaic Idealize.ShloMosaic.ValueIdx Idealize.ShloMosaic.MatmulRead Cert.DirGate Cert.DirGate.Rows

/-- The three products of the body are of an array of rows by a weight matrix. -/
theorem rows_by_cols_joined : RowsByCols dot_S6400x256_S256x128_S6400x128_1_0_0_1_n_n := ⟨rfl, rfl, rfl, rfl, rfl, rfl⟩
theorem rows_by_cols_unit : RowsByCols dot_S6400x128_S128x1_S6400x1_1_0_0_1_n_n := ⟨rfl, rfl, rfl, rfl, rfl, rfl⟩
theorem rows_by_cols_square : RowsByCols dot_S6400x128_S128x128_S6400x128_1_0_0_1_n_n := ⟨rfl, rfl, rfl, rfl, rfl, rfl⟩

variable (xs xd : FVec Ideal S6400x128 .bf16) (W₁ : FVec Ideal S256x128 .bf16) (b₁ : FVec Ideal S1x128 .f32)
  (w₂ : FVec Ideal S128x1 .bf16) (b₂ : FVec Ideal S1x1 .f32)

/-- The score of edge p of the block: the scorer on the edge's two feature rows. -/
theorem score_payload (p : Fin 6400) :
    k0_pay5 (F := Ideal) xs xd W₁ b₁ w₂ b₂ (ix2 p (0 : Fin 1))
      = score (fun k => xs (ix2 p k)) (fun k => xd (ix2 p k)) (fun k j => W₁ (ix2 k j)) (fun j => b₁ (ix2 (0 : Fin 1) j))
          (fun j => w₂ (ix2 j (0 : Fin 1))) (b₂ (ix2 (0 : Fin 1) (0 : Fin 1))) := by
  unfold k0_pay5 k0_pay3 k0_pay4
  simp only [shapeCast_self]
  rw [shapeCast_self xs, shapeCast_self xd]
  exact score_apply dot_S6400x256_S256x128_S6400x128_1_0_0_1_n_n rows_by_cols_joined rfl rfl
    dot_S6400x128_S128x1_S6400x1_1_0_0_1_n_n rows_by_cols_unit rfl rfl xs xd _ W₁ b₁ _ _ w₂ b₂ _ p

/-- The message towards the destination, entry (p, o): the source row's affine image times the edge's score. -/
theorem msgIn_payload (W : FVec Ideal S128x128 .bf16) (b : FVec Ideal S1x128 .f32) (p : Fin 6400) (o : Fin 128) :
    k0_pay1 (F := Ideal) (k0_pay6 xs xd W₁ b₁ w₂ b₂ W b) (ix2 p o)
      = message (fun k => xs (ix2 p k)) (fun k o' => W (ix2 k o')) (fun o' => b (ix2 (0 : Fin 1) o'))
          (score (fun k => xs (ix2 p k)) (fun k => xd (ix2 p k)) (fun k j => W₁ (ix2 k j)) (fun j => b₁ (ix2 (0 : Fin 1) j))
            (fun j => w₂ (ix2 j (0 : Fin 1))) (b₂ (ix2 (0 : Fin 1) (0 : Fin 1)))) o := by
  unfold k0_pay1 k0_pay6 k0_pay3 message
  simp only [shapeCast_self]
  refine (mulf_apply (φ := .f32) _ _ (ix2 p o)).trans ?_
  refine congrArg₂ (· * ·) ?_ ?_
  · exact affine_apply dot_S6400x128_S128x128_S6400x128_1_0_0_1_n_n rows_by_cols_square rfl rfl xs W b _ p o
  · exact (Cert.LibKeepdims.broadcastTo_a1_ab_apply _ _ p o).trans (score_payload xs xd W₁ b₁ w₂ b₂ p)

/-- The message towards the source, entry (p, o): the destination row's affine image times the same score. -/
theorem msgOut_payload (W : FVec Ideal S128x128 .bf16) (b : FVec Ideal S1x128 .f32) (p : Fin 6400) (o : Fin 128) :
    k0_pay2 (F := Ideal) (k0_pay5 xs xd W₁ b₁ w₂ b₂) (k0_pay7 xd W) b (ix2 p o)
      = message (fun k => xd (ix2 p k)) (fun k o' => W (ix2 k o')) (fun o' => b (ix2 (0 : Fin 1) o'))
          (score (fun k => xs (ix2 p k)) (fun k => xd (ix2 p k)) (fun k j => W₁ (ix2 k j)) (fun j => b₁ (ix2 (0 : Fin 1) j))
            (fun j => w₂ (ix2 j (0 : Fin 1))) (b₂ (ix2 (0 : Fin 1) (0 : Fin 1)))) o := by
  unfold k0_pay2 k0_pay7 k0_pay4 message
  simp only [shapeCast_self]
  refine (mulf_apply (φ := .f32) _ _ (ix2 p o)).trans ?_
  refine congrArg₂ (· * ·) ?_ ?_
  · exact affine_apply dot_S6400x128_S128x128_S6400x128_1_0_0_1_n_n rows_by_cols_square rfl rfl xd W b _ p o
  · exact (Cert.LibKeepdims.broadcastTo_a1_ab_apply _ _ p o).trans (score_payload xs xd W₁ b₁ w₂ b₂ p)

end Cert.DirGate.Edge

end
-- ==== Proof.EdgeBlocks.lean ====
/-
  The edge region's two output arrays after the run, each as one function of the arrays the region finds.

  The region's grid has 125 points; point t handles the 6400 edges  6400·t … 6400·t + 6399. Its two row windows
  (the gathered source and destination rows) and its two output windows move together: block t of each is rows
  6400·t … of its array, all 128 columns. The eight weight and bias windows stay at the origin and are whole
  arrays. So block t of an output array is the messages of exactly those 6400 edges, each computed from the edge's
  own two rows, and the 125 blocks tile the 800000 rows: after the run, row e of an output array holds the
  specification's message of edge e.
-/
import proofs.«139908_j19439021982026_2_alg».proof.Proof.PatchedFrameKernelIdeal
import proofs.«139908_j19439021982026_2_alg».proof.Proof.EdgePayload
import Idealize.ShloMosaic.Lib.Pipeline.Value

set_option maxRecDepth 16384

noncomputable section

open scoped BigOperators

namespace Cert.DirGate.Edge

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat Cfg Window)
open Cert.DirGate

/-- The message array of one direction, row by row: row e is the message of the feature row `x e`, scaled by the
    score of the two rows `xs e`, `xd e`. -/
def msgArr (x xs xd : S800000x128.Idx → EReal) (W₁ : S256x128.Idx → EReal) (b₁ : S1x128.Idx → EReal)
    (w₂ : S128x1.Idx → EReal) (b₂ : S1x1.Idx → EReal) (W : S128x128.Idx → EReal) (b : S1x128.Idx → EReal) :
    S800000x128.Idx → EReal := fun i =>
  message (fun k => x (ix2 (i 0) k)) (fun k o => W (ix2 k o)) (fun o => b (ix2 (0 : Fin 1) o))
    (score (fun k => xs (ix2 (i 0) k)) (fun k => xd (ix2 (i 0) k)) (fun k j => W₁ (ix2 k j)) (fun j => b₁ (ix2 (0 : Fin 1) j))
      (fun j => w₂ (ix2 j (0 : Fin 1))) (b₂ (ix2 (0 : Fin 1) (0 : Fin 1)))) (i 1)

theorem origin : (![0, 0] : Fin 2 → Nat) = fun _ => 0 := funext fun a => by fin_cases a <;> rfl

/-! ## The index maps, decided over the grid -/

/-- The two row windows and the second output window move with the first output window along the rows, and no
    window moves along the columns. -/
theorem rows_move_together : ∀ t : Fin cfg0.N,
    win0_0.index t (0 : Fin 2) = win0_10.index t (0 : Fin 2) ∧ win0_0.index t (1 : Fin 2) = 0
    ∧ win0_1.index t (0 : Fin 2) = win0_10.index t (0 : Fin 2) ∧ win0_1.index t (1 : Fin 2) = 0
    ∧ win0_11.index t (0 : Fin 2) = win0_10.index t (0 : Fin 2) ∧ win0_11.index t (1 : Fin 2) = 0
    ∧ win0_10.index t (1 : Fin 2) = 0 ∧ win0_10.index t (0 : Fin 2) < 125 :=
  (by decide +kernel : ∀ t : Fin grid0.N, _)

/-- The weight and bias windows stay at the origin. -/
theorem weights_stay : ∀ t : Fin cfg0.N,
    (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0) :=
  (by decide +kernel : ∀ t : Fin grid0.N, _)

/-- Every block of rows is some point's. -/
theorem every_row_block : ∀ q : Fin 125, ∃ t : Fin cfg0.N, win0_10.index t (0 : Fin 2) = q.val :=
  (by decide +kernel : ∀ q : Fin 125, ∃ t : Fin grid0.N, win0_10.index t (0 : Fin 2) = q.val)

variable (V : (c : Dev nD) → (b : Ref sig .tc) → Buf (Elt Ideal) ((c : Thread nD τ).loc b)) (c : Dev nD)

/-! ## The windows' blocks read off their arrays -/

/-- Row p of the source-row window's block at point t is the row of the array that row p of the first output window's
    block lands on. -/
theorem src_block (t : Fin cfg0.N) (p : Fin 6400) (k o : Fin 128) :
    (iblk0 V c 0 t : S6400x128.Idx → EReal) (ix2 p k)
      = (V c main_v11 : S800000x128.Idx → EReal) (ix2 ((((cfg0.win 10).blk t).view.emb (ix2 p o) : S800000x128.Idx) 0) k) := by
  obtain ⟨e0, e1, -⟩ := rows_move_together t
  show (V c main_v11 : S800000x128.Idx → EReal) (((cfg0.win 0).blk t).view.emb (ix2 p k)) = _
  refine congrArg (V c main_v11 : S800000x128.Idx → EReal) (funext fun a => Fin.ext ?_)
  match a with
  | ⟨0, _⟩ =>
    show win0_0.index t (0 : Fin 2) * 6400 + 1 * p.val = win0_10.index t (0 : Fin 2) * 6400 + 1 * p.val
    omega
  | ⟨1, _⟩ =>
    show win0_0.index t (1 : Fin 2) * 128 + 1 * k.val = k.val
    omega

theorem dst_block (t : Fin cfg0.N) (p : Fin 6400) (k o : Fin 128) :
    (iblk0 V c 1 t : S6400x128.Idx → EReal) (ix2 p k)
      = (V c main_v18 : S800000x128.Idx → EReal) (ix2 ((((cfg0.win 10).blk t).view.emb (ix2 p o) : S800000x128.Idx) 0) k) := by
  obtain ⟨-, -, e0, e1, -⟩ := rows_move_together t
  show (V c main_v18 : S800000x128.Idx → EReal) (((cfg0.win 1).blk t).view.emb (ix2 p k)) = _
  refine congrArg (V c main_v18 : S800000x128.Idx → EReal) (funext fun a => Fin.ext ?_)
  match a with
  | ⟨0, _⟩ =>
    show win0_1.index t (0 : Fin 2) * 6400 + 1 * p.val = win0_10.index t (0 : Fin 2) * 6400 + 1 * p.val
    omega
  | ⟨1, _⟩ =>
    show win0_1.index t (1 : Fin 2) * 128 + 1 * k.val = k.val
    omega

/-- The column of an entry of an output block is the column of the array entry it lands on. -/
theorem out_column (t : Fin cfg0.N) (p : Fin 6400) (o : Fin 128) :
    (((cfg0.win 10).blk t).view.emb (ix2 p o) : S800000x128.Idx) 1 = o := by
  obtain ⟨-, -, -, -, -, -, e, -⟩ := rows_move_together t
  refine Fin.ext ?_
  show win0_10.index t (1 : Fin 2) * 128 + 1 * o.val = o.val
  omega

/-- The second output window's blocks land where the first's do. -/
theorem out_same (t : Fin cfg0.N) (y : S6400x128.Idx) :
    (((cfg0.win 11).blk t).view.emb y : S800000x128.Idx) = ((cfg0.win 10).blk t).view.emb y := by
  obtain ⟨-, -, -, -, e0, e1, e2, -⟩ := rows_move_together t
  refine funext fun a => Fin.ext ?_
  match a with
  | ⟨0, _⟩ =>
    show win0_11.index t (0 : Fin 2) * 6400 + 1 * (y 0).val = win0_10.index t (0 : Fin 2) * 6400 + 1 * (y 0).val
    omega
  | ⟨1, _⟩ =>
    show win0_11.index t (1 : Fin 2) * 128 + 1 * (y 1).val = win0_10.index t (1 : Fin 2) * 128 + 1 * (y 1).val
    omega

/-- Each weight or bias window's block is its whole array, at every point. -/
theorem whole_2 (t : Fin cfg0.N) : (iblk0 V c 2 t : S256x128.Idx → EReal) = V c main_v19 := by
  obtain ⟨⟨e0, e1⟩, -⟩ := weights_stay t
  funext y
  show (V c main_v19 : S256x128.Idx → EReal) (((cfg0.win 2).blk t).view.emb y) = _
  refine congrArg (V c main_v19 : S256x128.Idx → EReal) (funext fun a => Fin.ext ?_)
  match a with
  | ⟨0, _⟩ => show win0_2.index t (0 : Fin 2) * 256 + 1 * (y 0).val = (y 0).val; omega
  | ⟨1, _⟩ => show win0_2.index t (1 : Fin 2) * 128 + 1 * (y 1).val = (y 1).val; omega

theorem whole_3 (t : Fin cfg0.N) : (iblk0 V c 3 t : S1x128.Idx → EReal) = V c main_v23 := by
  obtain ⟨-, ⟨e0, e1⟩, -⟩ := weights_stay t
  funext y
  show (V c main_v23 : S1x128.Idx → EReal) (((cfg0.win 3).blk t).view.emb y) = _
  refine congrArg (V c main_v23 : S1x128.Idx → EReal) (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega

theorem whole_4 (t : Fin cfg0.N) : (iblk0 V c 4 t : S128x1.Idx → EReal) = V c main_v20 := by
  obtain ⟨-, -, ⟨e0, e1⟩, -⟩ := weights_stay t
  funext y
  show (V c main_v20 : S128x1.Idx → EReal) (((cfg0.win 4).blk t).view.emb y) = _
  refine congrArg (V c main_v20 : S128x1.Idx → EReal) (funext fun a => Fin.ext ?_)
  match a with
  | ⟨0, _⟩ => show win0_4.index t (0 : Fin 2) * 128 + 1 * (y 0).val = (y 0).val; omega
  | ⟨1, _⟩ => show win0_4.index t (1 : Fin 2) * 1 + 1 * (y 1).val = (y 1).val; omega

theorem whole_5 (t : Fin cfg0.N) : (iblk0 V c 5 t : S1x1.Idx → EReal) = V c main_v24 := by
  obtain ⟨-, -, -, ⟨e0, e1⟩, -⟩ := weights_stay t
  funext y
  show (V c main_v24 : S1x1.Idx → EReal) (((cfg0.win 5).blk t).view.emb y) = _
  refine congrArg (V c main_v24 : S1x1.Idx → EReal) (funext fun a => Fin.ext ?_)
  match a with
  | ⟨0, _⟩ => show win0_5.index t (0 : Fin 2) * 1 + 1 * (y 0).val = (y 0).val; omega
  | ⟨1, _⟩ => show win0_5.index t (1 : Fin 2) * 1 + 1 * (y 1).val = (y 1).val; omega

theorem whole_6 (t : Fin cfg0.N) : (iblk0 V c 6 t : S128x128.Idx → EReal) = V c main_v21 := by
  obtain ⟨-, -, -, -, ⟨e0, e1⟩, -⟩ := weights_stay t
  funext y
  show (V c main_v21 : S128x128.Idx → EReal) (((cfg0.win 6).blk t).view.emb y) = _
  refine congrArg (V c main_v21 : S128x128.Idx → EReal) (funext fun a => Fin.ext ?_)
  match a with
  | ⟨0, _⟩ => show win0_6.index t (0 : Fin 2) * 128 + 1 * (y 0).val = (y 0).val; omega
  | ⟨1, _⟩ => show win0_6.index t (1 : Fin 2) * 128 + 1 * (y 1).val = (y 1).val; omega

theorem whole_7 (t : Fin cfg0.N) : (iblk0 V c 7 t : S1x128.Idx → EReal) = V c main_v25 := by
  obtain ⟨-, -, -, -, -, ⟨e0, e1⟩, -⟩ := weights_stay t
  funext y
  show (V c main_v25 : S1x128.Idx → EReal) (((cfg0.win 7).blk t).view.emb y) = _
  refine congrArg (V c main_v25 : S1x128.Idx → EReal) (funext fun a => Fin.ext ?_)
  match a with
  | ⟨0, _⟩ => show win0_7.index t (0 : Fin 2) * 1 + 1 * (y 0).val = (y 0).val; omega
  | ⟨1, _⟩ => show win0_7.index t (1 : Fin 2) * 128 + 1 * (y 1).val = (y 1).val; omega

theorem whole_8 (t : Fin cfg0.N) : (iblk0 V c 8 t : S128x128.Idx → EReal) = V c main_v22 := by
  obtain ⟨-, -, -, -, -, -, ⟨e0, e1⟩, -⟩ := weights_stay t
  funext y
  show (V c main_v22 : S128x128.Idx → EReal) (((cfg0.win 8).blk t).view.emb y) = _
  refine congrArg (V c main_v22 : S128x128.Idx → EReal) (funext fun a => Fin.ext ?_)
  match a with
  | ⟨0, _⟩ => show win0_8.index t (0 : Fin 2) * 128 + 1 * (y 0).val = (y 0).val; omega
  | ⟨1, _⟩ => show win0_8.index t (1 : Fin 2) * 128 + 1 * (y 1).val = (y 1).val; omega

theorem whole_9 (t : Fin cfg0.N) : (iblk0 V c 9 t : S1x128.Idx → EReal) = V c main_v26 := by
  obtain ⟨-, -, -, -, -, -, -, e0, e1⟩ := weights_stay t
  funext y
  show (V c main_v26 : S1x128.Idx → EReal) (((cfg0.win 9).blk t).view.emb y) = _
  refine congrArg (V c main_v26 : S1x128.Idx → EReal) (funext fun a => Fin.ext ?_)
  match a with
  | ⟨0, _⟩ => show win0_9.index t (0 : Fin 2) * 1 + 1 * (y 0).val = (y 0).val; omega
  | ⟨1, _⟩ => show win0_9.index t (1 : Fin 2) * 128 + 1 * (y 1).val = (y 1).val; omega

end Cert.DirGate.Edge

end
-- ==== Proof.EdgeArrays.lean ====
/-
  The edge region's two output arrays after the run.

  Point t writes back, into rows 6400·t … of each output array, the messages of those edges (the body's stored
  block, read through the windows' blocks); every row of the array lies in exactly such a block; so after the last
  point each output array is, row by row, the message array of its direction.
-/
import proofs.«139908_j19439021982026_2_alg».proof.Proof.EdgeBlocks

set_option maxRecDepth 16384

noncomputable section

open scoped BigOperators

namespace Cert.DirGate.Edge

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat Cfg Window)
open Cert.DirGate

variable (V : (c : Dev nD) → (b : Ref sig .tc) → Buf (Elt Ideal) ((c : Thread nD τ).loc b)) (c : Dev nD)

/-- The messages towards the destinations, as the region finds its arrays. -/
abbrev inArr : S800000x128.Idx → EReal :=
  msgArr (V c main_v11) (V c main_v11) (V c main_v18) (V c main_v19) (V c main_v23) (V c main_v20) (V c main_v24)
    (V c main_v21) (V c main_v25)

/-- The messages towards the sources, as the region finds its arrays. -/
abbrev outArr : S800000x128.Idx → EReal :=
  msgArr (V c main_v18) (V c main_v11) (V c main_v18) (V c main_v19) (V c main_v23) (V c main_v20) (V c main_v24)
    (V c main_v22) (V c main_v26)

/-- What point t writes back into the first output array: rows 6400·t … of the messages towards the destinations. -/
theorem flushed_in (t : Fin cfg0.N) :
    (dat0 V c).flushed 10 t = ((cfg0.win 10).blk t).view.read (Elt Ideal) (inArr V c) := by
  show (cfg0.win 10).cut (grid0.coords t) ((dat0 V c).after 10 t) = _
  rw [after0_10]
  unfold out0_10
  rw [View.canon_unit_zero origin]
  simp only [View.ld_unit_zero (S := S6400x128) origin, View.ld_unit_zero (S := S256x128) origin, View.ld_unit_zero (S := S1x128) origin, View.ld_unit_zero (S := S128x1) origin, View.ld_unit_zero (S := S1x1) origin, View.ld_unit_zero (S := S128x128) origin]
  funext j
  obtain ⟨p, o, rfl⟩ : ∃ (p : Fin 6400) (o : Fin 128), j = ix2 p o := ⟨j 0, j 1, eq_ix2 j⟩
  refine (msgIn_payload (iblk0 V c 0 t) (iblk0 V c 1 t) (iblk0 V c 2 t) (iblk0 V c 3 t) (iblk0 V c 4 t) (iblk0 V c 5 t)
    (iblk0 V c 6 t) (iblk0 V c 7 t) p o).trans ?_
  show _ = inArr V c (((cfg0.win 10).blk t).view.emb (ix2 p o))
  have hs : (fun k : Fin 128 => (iblk0 V c 0 t : S6400x128.Idx → EReal) (ix2 p k))
      = fun k => (V c main_v11 : S800000x128.Idx → EReal) (ix2 ((((cfg0.win 10).blk t).view.emb (ix2 p o) : S800000x128.Idx) 0) k) :=
    funext fun k => src_block V c t p k o
  have hd : (fun k : Fin 128 => (iblk0 V c 1 t : S6400x128.Idx → EReal) (ix2 p k))
      = fun k => (V c main_v18 : S800000x128.Idx → EReal) (ix2 ((((cfg0.win 10).blk t).view.emb (ix2 p o) : S800000x128.Idx) 0) k) :=
    funext fun k => dst_block V c t p k o
  unfold inArr msgArr
  rw [hs, hd, whole_2 V c t, whole_3 V c t, whole_4 V c t, whole_5 V c t, whole_6 V c t, whole_7 V c t, out_column t p o]

/-- What point t writes back into the second output array: rows 6400·t … of the messages towards the sources. -/
theorem flushed_out (t : Fin cfg0.N) :
    (dat0 V c).flushed 11 t = ((cfg0.win 11).blk t).view.read (Elt Ideal) (outArr V c) := by
  show (cfg0.win 11).cut (grid0.coords t) ((dat0 V c).after 11 t) = _
  rw [after0_11]
  unfold out0_11
  rw [View.canon_unit_zero origin]
  simp only [View.ld_unit_zero (S := S6400x128) origin, View.ld_unit_zero (S := S256x128) origin, View.ld_unit_zero (S := S1x128) origin, View.ld_unit_zero (S := S128x1) origin, View.ld_unit_zero (S := S1x1) origin, View.ld_unit_zero (S := S128x128) origin]
  funext j
  obtain ⟨p, o, rfl⟩ : ∃ (p : Fin 6400) (o : Fin 128), j = ix2 p o := ⟨j 0, j 1, eq_ix2 j⟩
  refine (msgOut_payload (iblk0 V c 0 t) (iblk0 V c 1 t) (iblk0 V c 2 t) (iblk0 V c 3 t) (iblk0 V c 4 t) (iblk0 V c 5 t)
    (iblk0 V c 8 t) (iblk0 V c 9 t) p o).trans ?_
  show _ = outArr V c (((cfg0.win 11).blk t).view.emb (ix2 p o))
  have hs : (fun k : Fin 128 => (iblk0 V c 0 t : S6400x128.Idx → EReal) (ix2 p k))
      = fun k => (V c main_v11 : S800000x128.Idx → EReal) (ix2 ((((cfg0.win 10).blk t).view.emb (ix2 p o) : S800000x128.Idx) 0) k) :=
    funext fun k => src_block V c t p k o
  have hd : (fun k : Fin 128 => (iblk0 V c 1 t : S6400x128.Idx → EReal) (ix2 p k))
      = fun k => (V c main_v18 : S800000x128.Idx → EReal) (ix2 ((((cfg0.win 10).blk t).view.emb (ix2 p o) : S800000x128.Idx) 0) k) :=
    funext fun k => dst_block V c t p k o
  unfold outArr msgArr
  rw [out_same t (ix2 p o), hs, hd, whole_2 V c t, whole_3 V c t, whole_4 V c t, whole_5 V c t, whole_8 V c t, whole_9 V c t,
    out_column t p o]

/-- A row of the array is in point t's block of the first output window iff it is among rows 6400·t …, any column. -/
theorem mem_blk_in (t : Fin cfg0.N) (i : S800000x128.Idx) :
    i ∈ ((cfg0.win 10).blk t).view.set ↔ ∀ a : Fin 2, win0_10.index t a * S6400x128.size a ≤ (i a).val
      ∧ (i a).val < win0_10.index t a * S6400x128.size a + S6400x128.size a := by
  show i ∈ ((View.whole main_v27_0).slice (win0_10.rect t)).set ↔ _
  rw [View.set_slice_whole, Rect.mem_set_unit]
  exact Iff.rfl

theorem mem_blk_out (t : Fin cfg0.N) (i : S800000x128.Idx) :
    i ∈ ((cfg0.win 11).blk t).view.set ↔ ∀ a : Fin 2, win0_11.index t a * S6400x128.size a ≤ (i a).val
      ∧ (i a).val < win0_11.index t a * S6400x128.size a + S6400x128.size a := by
  show i ∈ ((View.whole main_v27_1).slice (win0_11.rect t)).set ↔ _
  rw [View.set_slice_whole, Rect.mem_set_unit]
  exact Iff.rfl

/-- Every entry of the first output array is in the block of the point that handles its row: point ⌊row / 6400⌋. -/
theorem cover_in (i : S800000x128.Idx) :
    ∃ t : Fin cfg0.N, (cfg0.win 10).flush t = true ∧ i ∈ ((cfg0.win 10).blk t).view.set := by
  have hi0 : (i 0).val < 800000 := (i 0).isLt
  have hi1 : (i 1).val < 128 := (i 1).isLt
  obtain ⟨t, ht⟩ := every_row_block ⟨(i 0).val / 6400, by omega⟩
  have ht' : win0_10.index t (0 : Fin 2) = (i 0).val / 6400 := ht
  obtain ⟨-, -, -, -, -, -, e1, -⟩ := rows_move_together t
  refine ⟨t, flush0_10 t, ?_⟩
  rw [mem_blk_in]
  intro a
  match a with
  | ⟨0, _⟩ =>
    show win0_10.index t (0 : Fin 2) * 6400 ≤ (i 0).val ∧ (i 0).val < win0_10.index t (0 : Fin 2) * 6400 + 6400
    omega
  | ⟨1, _⟩ =>
    show win0_10.index t (1 : Fin 2) * 128 ≤ (i 1).val ∧ (i 1).val < win0_10.index t (1 : Fin 2) * 128 + 128
    omega

theorem cover_out (i : S800000x128.Idx) :
    ∃ t : Fin cfg0.N, (cfg0.win 11).flush t = true ∧ i ∈ ((cfg0.win 11).blk t).view.set := by
  have hi0 : (i 0).val < 800000 := (i 0).isLt
  have hi1 : (i 1).val < 128 := (i 1).isLt
  obtain ⟨t, ht⟩ := every_row_block ⟨(i 0).val / 6400, by omega⟩
  have ht' : win0_10.index t (0 : Fin 2) = (i 0).val / 6400 := ht
  obtain ⟨-, -, -, -, e0, e1, -⟩ := rows_move_together t
  refine ⟨t, flush0_11 t, ?_⟩
  rw [mem_blk_out]
  intro a
  match a with
  | ⟨0, _⟩ =>
    show win0_11.index t (0 : Fin 2) * 6400 ≤ (i 0).val ∧ (i 0).val < win0_11.index t (0 : Fin 2) * 6400 + 6400
    omega
  | ⟨1, _⟩ =>
    show win0_11.index t (1 : Fin 2) * 128 ≤ (i 1).val ∧ (i 1).val < win0_11.index t (1 : Fin 2) * 128 + 128
    omega

/-- After the run the first output array is the messages towards the destinations, … -/
theorem final_in : (dat0 V c).arrAt 10 cfg0.N = inArr V c :=
  (dat0 V c).arrAt_eq_of_cover 10 (inArr V c) (fun t _ => flushed_in V c t) cover_in

/-- … and the second the messages towards the sources. -/
theorem final_out : (dat0 V c).arrAt 11 cfg0.N = outArr V c :=
  (dat0 V c).arrAt_eq_of_cover 11 (outArr V c) (fun t _ => flushed_out V c t) cover_out

end Cert.DirGate.Edge

end
-- ==== Proof.RefEdge.lean ====
/-
  The edge half of the reference, read one entry at a time.

  An edge e carries two rows of 128 entries: a = row e of the first gathered array (the features of the edge's first
  endpoint) and b = row e of the second gathered array (the features of its second endpoint). Both gathered arrays
  stay as they are; everything below is a function of their rows e and of the weights.

    joined row      position k < 128 is a k, position k ≥ 128 is b (k − 128)
    hidden unit j   max (joined · column j of the first scorer weights + bias j, 0)
    logit           hidden · the second scorer weights + their bias
    score           1 / (1 + e^(−logit)), the logistic of the logit
    message (in)    (a · column o of the in-weights + in-bias o) · score
    message (out)   (b · column o of the out-weights + out-bias o) · score

  No law of the extended reals is used: each stage is read at its index and the result is the specification's
  expression, operation for operation.
-/
import proofs.«139908_j19439021982026_2_alg».proof.Proof.Gen.ReferenceIdeal.Read
import proofs.«139908_j19439021982026_2_alg».proof.Proof.Spec

noncomputable section

open scoped BigOperators

namespace Cert.DirGate.Ref

open Cert.ReferenceIdeal Cert.ReferenceIdeal.Gen Cert.ReferenceIdeal.Read Idealize.ShloMosaic Idealize.ShloMosaic.ValueIdx Cert.DirGate

/-- Two indices of rank 2 with the same coordinates are the same index. -/
local macro "same_coords₂" : tactic =>
  `(tactic| exact funext fun a => by match a with | ⟨0, _⟩ => rfl | ⟨1, _⟩ => rfl)

/-- Two indices of rank 1 with the same coordinate are the same index. -/
local macro "same_coords₁" : tactic =>
  `(tactic| exact funext fun a => by match a with | ⟨0, _⟩ => rfl)

section Scorer

variable (x0 : (⟨S50000x128, .f32⟩ : BufTy).Contents (Elt Ideal)) (x1 : (⟨S2x800000, .i32⟩ : BufTy).Contents (Elt Ideal))
  (x6 : (⟨S256x128, .f32⟩ : BufTy).Contents (Elt Ideal)) (x7 : (⟨S128, .f32⟩ : BufTy).Contents (Elt Ideal))
  (x8 : (⟨S128x1, .f32⟩ : BufTy).Contents (Elt Ideal)) (x9 : (⟨S1, .f32⟩ : BufTy).Contents (Elt Ideal))

/-- Row e of the concatenation of the two gathered arrays is the two rows e joined: a position below 128 falls in
    the first piece, at the same position; a position from 128 on falls in the second piece, 128 less. -/
theorem joinedRows_apply (e : Fin 800000) (k : Fin 256) :
    val_main_v18 (F := Ideal) x0 x1 (ix2 e k)
      = joined (fun k' => val_main_v10 (F := Ideal) x0 x1 (ix2 e k')) (fun k' => val_main_v17 (F := Ideal) x0 x1 (ix2 e k')) k := by
  unfold val_main_v18 joined
  generalize val_main_v10 (F := Ideal) x0 x1 = y₁
  generalize val_main_v17 (F := Ideal) x0 x1 = y₂
  have hk : k.val < 256 := k.isLt
  by_cases h : k.val < 128
  · rw [dif_pos h]
    exact concatenate_pair_apply_left 1 y₁ y₂ concatenates_S800000x128_S800000x128_S800000x256_d1 (ix2 e k) rfl
      (ix2 e (⟨k.val, h⟩ : Fin 128)) (fun b => by
        match b with
        | ⟨0, _⟩ => rfl
        | ⟨1, _⟩ => rfl)
  · rw [dif_neg h]
    exact concatenate_pair_apply_right 1 y₁ y₂ concatenates_S800000x128_S800000x128_S800000x256_d1 (ix2 e k) rfl rfl
      (ix2 e (⟨k.val - 128, by omega⟩ : Fin 128))
      (fun b hb => by
        match b with
        | ⟨0, _⟩ => rfl
        | ⟨1, _⟩ => exact absurd rfl hb)
      (by show (k.val - 128) + 128 = k.val; omega)

/-- Hidden unit j of edge e: the joined row against column j of the first scorer weights (a sum over the 256
    positions), plus bias j, clamped below at zero. -/
theorem hidden_apply (e : Fin 800000) (j : Fin 128) :
    val_main_v23 (F := Ideal) x0 x1 x6 x7 (ix2 e j)
      = hidden (fun k => val_main_v10 (F := Ideal) x0 x1 (ix2 e k)) (fun k => val_main_v17 (F := Ideal) x0 x1 (ix2 e k))
          (fun k j' => x6 (ix2 k j')) (fun j' => x7 (ix1 j')) j := by
  rw [val_main_v23_apply, val_main_v22_apply, val_main_v19_apply, val_main_v21_apply, val_main_v20_apply,
    val_main_call0_v0_apply, val_main_call0_cst_apply]
  simp only [Ideal.maximumf_def, Ideal.addf_def, Ideal.ofBits_def]
  unfold hidden
  refine congrArg₂ (fun s t : EReal => max (s + t) (Ideal.ofBits .f32 0x00000000#32))
    (Finset.sum_congr rfl fun k _ => ?_) ?_
  · exact congrArg₂ (fun s t : EReal => s * t)
      ((congrArg (val_main_v18 (F := Ideal) x0 x1) (by same_coords₂)).trans (joinedRows_apply x0 x1 e k))
      (congrArg x6 (by same_coords₂))
  · exact congrArg x7 (by same_coords₁)

/-- The logit of edge e: the 128 hidden units against the second scorer weights, plus their bias. -/
theorem logit_apply (e : Fin 800000) :
    val_main_v27 (F := Ideal) x0 x1 x6 x7 x8 x9 (ix2 e (0 : Fin 1))
      = (∑ j : Fin 128,
            hidden (fun k => val_main_v10 (F := Ideal) x0 x1 (ix2 e k)) (fun k => val_main_v17 (F := Ideal) x0 x1 (ix2 e k))
              (fun k j' => x6 (ix2 k j')) (fun j' => x7 (ix1 j')) j * x8 (ix2 j (0 : Fin 1)))
          + x9 (ix1 (0 : Fin 1)) := by
  rw [val_main_v27_apply, val_main_v24_apply, val_main_v26_apply, val_main_v25_apply]
  simp only [Ideal.addf_def]
  refine congrArg₂ (fun s t : EReal => s + t) (Finset.sum_congr rfl fun j _ => ?_) ?_
  · exact congrArg₂ (fun s t : EReal => s * t)
      ((congrArg (val_main_v23 (F := Ideal) x0 x1 x6 x7) (by same_coords₂)).trans (hidden_apply x0 x1 x6 x7 e j))
      (congrArg x8 (by same_coords₂))
  · exact congrArg x9 (by same_coords₁)

/-- The score of edge e is the scorer's value on the edge's two rows: the logit reshaped to one entry per edge,
    negated, exponentiated, one added, and one divided by the result, which is the logistic of the logit. -/
theorem edgeScore_apply (e : Fin 800000) :
    val_main_v34 (F := Ideal) x0 x1 x6 x7 x8 x9 (ix1 e)
      = score (fun k => val_main_v10 (F := Ideal) x0 x1 (ix2 e k)) (fun k => val_main_v17 (F := Ideal) x0 x1 (ix2 e k))
          (fun k j => x6 (ix2 k j)) (fun j => x7 (ix1 j)) (fun j => x8 (ix2 j (0 : Fin 1))) (x9 (ix1 (0 : Fin 1))) := by
  have hlogit : val_main_v28 (F := Ideal) x0 x1 x6 x7 x8 x9 (ix1 e) = _ :=
    (val_main_v28_apply x0 x1 x6 x7 x8 x9 (ix1 e)).trans
      ((congrArg (val_main_v27 (F := Ideal) x0 x1 x6 x7 x8 x9)
          (show idx_main_v28 (ix1 e) = ix2 e (0 : Fin 1) from funext fun a => by
            match a with
            | ⟨0, _⟩ => exact Fin.ext (Nat.div_one _)
            | ⟨1, _⟩ => rfl)).trans
        (logit_apply x0 x1 x6 x7 x8 x9 e))
  rw [val_main_v34_apply, val_main_v33_apply, val_main_cst_3_apply, val_main_v32_apply, val_main_v31_apply,
    val_main_cst_apply, val_main_v30_apply, val_main_v29_apply, hlogit]
  simp only [Ideal.hostDivf_def, Ideal.addf_def, Ideal.hostUnary_exp_def, Ideal.hostNegf_def, Ideal.negf_def,
    Ideal.ofBits_def]
  exact logistic_spelt _

end Scorer

/-- Entry o of the message an edge sends along its direction: the first endpoint's row against column o of the
    in-weights, plus in-bias o, times the edge's score (the score is spread over the 128 entries of the row). -/
theorem msgIn_apply (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x6 : (⟨S256x128, .f32⟩ : BufTy).Contents (Elt Ideal)) (x7 : (⟨S128, .f32⟩ : BufTy).Contents (Elt Ideal))
    (x8 : (⟨S128x1, .f32⟩ : BufTy).Contents (Elt Ideal)) (x9 : (⟨S1, .f32⟩ : BufTy).Contents (Elt Ideal))
    (e : Fin 800000) (o : Fin 128) :
    val_main_v41 (F := Ideal) x0 x1 x2 x3 x6 x7 x8 x9 (ix2 e o)
      = message (fun k => val_main_v10 (F := Ideal) x0 x1 (ix2 e k)) (fun k o' => x2 (ix2 k o')) (fun o' => x3 (ix1 o'))
          (score (fun k => val_main_v10 (F := Ideal) x0 x1 (ix2 e k)) (fun k => val_main_v17 (F := Ideal) x0 x1 (ix2 e k))
            (fun k j => x6 (ix2 k j)) (fun j => x7 (ix1 j)) (fun j => x8 (ix2 j (0 : Fin 1))) (x9 (ix1 (0 : Fin 1)))) o := by
  rw [val_main_v41_apply, val_main_v38_apply, val_main_v35_apply, val_main_v37_apply, val_main_v36_apply,
    val_main_v40_apply, val_main_v39_apply]
  simp only [Ideal.mulf_def, Ideal.addf_def]
  unfold message
  refine congrArg₂ (fun s t : EReal => s * t)
    (congrArg₂ (fun s t : EReal => s + t) (Finset.sum_congr rfl fun k _ => ?_) ?_) ?_
  · exact congrArg₂ (fun s t : EReal => s * t)
      (congrArg (val_main_v10 (F := Ideal) x0 x1) (by same_coords₂)) (congrArg x2 (by same_coords₂))
  · exact congrArg x3 (by same_coords₁)
  · exact (congrArg (val_main_v34 (F := Ideal) x0 x1 x6 x7 x8 x9) (by same_coords₁)).trans
      (edgeScore_apply x0 x1 x6 x7 x8 x9 e)

/-- Entry o of the message an edge sends against its direction: the second endpoint's row against column o of the
    out-weights, plus out-bias o, times the same score. -/
theorem msgOut_apply (x0 : (⟨S50000x128, .f32⟩ : BufTy).Contents (Elt Ideal)) (x1 : (⟨S2x800000, .i32⟩ : BufTy).Contents (Elt Ideal))
    (x4 : (⟨S128x128, .f32⟩ : BufTy).Contents (Elt Ideal)) (x5 : (⟨S128, .f32⟩ : BufTy).Contents (Elt Ideal))
    (x6 : (⟨S256x128, .f32⟩ : BufTy).Contents (Elt Ideal)) (x7 : (⟨S128, .f32⟩ : BufTy).Contents (Elt Ideal))
    (x8 : (⟨S128x1, .f32⟩ : BufTy).Contents (Elt Ideal)) (x9 : (⟨S1, .f32⟩ : BufTy).Contents (Elt Ideal))
    (e : Fin 800000) (o : Fin 128) :
    val_main_v48 (F := Ideal) x0 x1 x4 x5 x6 x7 x8 x9 (ix2 e o)
      = message (fun k => val_main_v17 (F := Ideal) x0 x1 (ix2 e k)) (fun k o' => x4 (ix2 k o')) (fun o' => x5 (ix1 o'))
          (score (fun k => val_main_v10 (F := Ideal) x0 x1 (ix2 e k)) (fun k => val_main_v17 (F := Ideal) x0 x1 (ix2 e k))
            (fun k j => x6 (ix2 k j)) (fun j => x7 (ix1 j)) (fun j => x8 (ix2 j (0 : Fin 1))) (x9 (ix1 (0 : Fin 1)))) o := by
  rw [val_main_v48_apply, val_main_v45_apply, val_main_v42_apply, val_main_v44_apply, val_main_v43_apply,
    val_main_v47_apply, val_main_v46_apply]
  simp only [Ideal.mulf_def, Ideal.addf_def]
  unfold message
  refine congrArg₂ (fun s t : EReal => s * t)
    (congrArg₂ (fun s t : EReal => s + t) (Finset.sum_congr rfl fun k _ => ?_) ?_) ?_
  · exact congrArg₂ (fun s t : EReal => s * t)
      (congrArg (val_main_v17 (F := Ideal) x0 x1) (by same_coords₂)) (congrArg x4 (by same_coords₂))
  · exact congrArg x5 (by same_coords₁)
  · exact (congrArg (val_main_v34 (F := Ideal) x0 x1 x6 x7 x8 x9) (by same_coords₁)).trans
      (edgeScore_apply x0 x1 x6 x7 x8 x9 e)

end Cert.DirGate.Ref

end
-- ==== Proof.HostStages.lean ====
/-
  What the two kernel regions find in their input arrays, as terms of the arguments of @main, at the exact values
  (a float an extended real, a change of float format the identity).

  Before the edge region the program splits the edge list into its two rows (the sources and the targets), reads a node
  index below zero as counted from the end, gathers the two feature rows of every edge, and lays the weights out: the
  matrices as they are, each bias vector as one row. Between the two regions it counts, for every node, the edges that
  arrive and the edges that leave, never letting a count fall below one, sums the edge region's two message arrays into
  the nodes they point to, and lays the gate's weights out in the same way.

  The reference performs the same operations on the same arguments, so each array equals the reference's term for it;
  a bias laid out as one row reads, at column o, the vector's entry o; a count laid out as one column reads, at row n,
  the vector's entry n.
-/
import proofs.«139908_j19439021982026_2_alg».proof.Proof.PatchedFrameKernelIdeal
import proofs.«139908_j19439021982026_2_alg».proof.Proof.Gen.ReferenceIdeal.Read
import Idealize.ShloMosaic.Lib.StableHlo.Run
import Idealize.ShloMosaic.Lib.ValueIdx
import Idealize.ShloMosaic.Lib.ValueLayout
import Idealize.ShloMosaic.Lib.Pipeline.Value

noncomputable section

namespace Cert.DirGate.Host

open Cert.KernelIdeal Cert.KernelIdeal.Gen Cert.KernelIdeal.GenP
open Idealize.ShloMosaic Idealize.ShloMosaic.TcCoe Idealize.ShloMosaic.ValueIdx
open Idealize.SL.Sem

variable (m : (ℓ : Loc nD τ sig) → Buf (Elt Ideal) ℓ) (ρ : Dev nD → PrngReg) (c : Dev nD)

/-- A vector laid out as one column reads, at row p, the vector's entry p. -/
theorem column_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-! ## Before the edge region -/

/-- The source rows: row e is the feature row of edge e's source node. -/
theorem src_rows :
    (V1 m ρ c main_v11 : S800000x128.Idx → EReal)
      = Cert.ReferenceIdeal.Read.val_main_v10 (F := Ideal) (m ((c : Thread nD τ).loc main_arg0)) (m ((c : Thread nD τ).loc main_arg1)) := by
  show StableHlo.after hostOps0 (W0 m ρ c) (Proc.devRef .tc main_v11) = _
  after_results
  rfl

/-- The target rows: row e is the feature row of edge e's target node. -/
theorem dst_rows :
    (V1 m ρ c main_v18 : S800000x128.Idx → EReal)
      = Cert.ReferenceIdeal.Read.val_main_v17 (F := Ideal) (m ((c : Thread nD τ).loc main_arg0)) (m ((c : Thread nD τ).loc main_arg1)) := by
  show StableHlo.after hostOps0 (W0 m ρ c) (Proc.devRef .tc main_v18) = _
  after_results_simp
  rfl

/-- The scorer's first weights, as launched. -/
theorem score_w1 :
    (V1 m ρ c main_v19 : S256x128.Idx → EReal) = m ((c : Thread nD τ).loc main_arg6) := by
  show StableHlo.after hostOps0 (W0 m ρ c) (Proc.devRef .tc main_v19) = _
  after_results
  rfl

/-- The scorer's second weights, as launched. -/
theorem score_w2 :
    (V1 m ρ c main_v20 : S128x1.Idx → EReal) = m ((c : Thread nD τ).loc main_arg8) := by
  show StableHlo.after hostOps0 (W0 m ρ c) (Proc.devRef .tc main_v20) = _
  after_results
  rfl

/-- The weights of the messages along an edge, as launched. -/
theorem msg_w_in :
    (V1 m ρ c main_v21 : S128x128.Idx → EReal) = m ((c : Thread nD τ).loc main_arg2) := by
  show StableHlo.after hostOps0 (W0 m ρ c) (Proc.devRef .tc main_v21) = _
  after_results
  rfl

/-- The weights of the messages against an edge, as launched. -/
theorem msg_w_out :
    (V1 m ρ c main_v22 : S128x128.Idx → EReal) = m ((c : Thread nD τ).loc main_arg4) := by
  show StableHlo.after hostOps0 (W0 m ρ c) (Proc.devRef .tc main_v22) = _
  after_results
  rfl

/-- The scorer's first bias as one row: column o holds the vector's entry o. -/
theorem score_b1 (o : Fin 128) :
    (V1 m ρ c main_v23 : S1x128.Idx → EReal) (ix2 (0 : Fin 1) o) = m ((c : Thread nD τ).loc main_arg7) (ix1 o) := by
  have e : (V1 m ρ c main_v23 : S1x128.Idx → EReal)
      = shapeCast S1x128 (m ((c : Thread nD τ).loc main_arg7) : S128.Idx → EReal) shapeCasts_S128_S1x128 := by
    show StableHlo.after hostOps0 (W0 m ρ c) (Proc.devRef .tc main_v23) = _
    after_results
    rfl
  rw [e]
  exact shapeCast_a_1a_apply _ _ 0 o

/-- The bias of the messages along an edge as one row. -/
theorem msg_b_in (o : Fin 128) :
    (V1 m ρ c main_v25 : S1x128.Idx → EReal) (ix2 (0 : Fin 1) o) = m ((c : Thread nD τ).loc main_arg3) (ix1 o) := by
  have e : (V1 m ρ c main_v25 : S1x128.Idx → EReal)
      = shapeCast S1x128 (m ((c : Thread nD τ).loc main_arg3) : S128.Idx → EReal) shapeCasts_S128_S1x128 := by
    show StableHlo.after hostOps0 (W0 m ρ c) (Proc.devRef .tc main_v25) = _
    after_results
    rfl
  rw [e]
  exact shapeCast_a_1a_apply _ _ 0 o

/-- The bias of the messages against an edge as one row. -/
theorem msg_b_out (o : Fin 128) :
    (V1 m ρ c main_v26 : S1x128.Idx → EReal) (ix2 (0 : Fin 1) o) = m ((c : Thread nD τ).loc main_arg5) (ix1 o) := by
  have e : (V1 m ρ c main_v26 : S1x128.Idx → EReal)
      = shapeCast S1x128 (m ((c : Thread nD τ).loc main_arg5) : S128.Idx → EReal) shapeCasts_S128_S1x128 := by
    show StableHlo.after hostOps0 (W0 m ρ c) (Proc.devRef .tc main_v26) = _
    after_results
    rfl
  rw [e]
  exact shapeCast_a_1a_apply _ _ 0 o

/-- The scorer's second bias, one number, as a one-by-one array. -/
theorem score_b2 :
    (V1 m ρ c main_v24 : S1x1.Idx → EReal) (ix2 (0 : Fin 1) (0 : Fin 1)) = m ((c : Thread nD τ).loc main_arg9) (ix1 (0 : Fin 1)) := by
  have e : (V1 m ρ c main_v24 : S1x1.Idx → EReal)
      = shapeCast S1x1 (m ((c : Thread nD τ).loc main_arg9) : S1.Idx → EReal) shapeCasts_S1_S1x1 := by
    show StableHlo.after hostOps0 (W0 m ρ c) (Proc.devRef .tc main_v24) = _
    after_results
    rfl
  rw [e]
  exact shapeCast_a_1a_apply _ _ 0 0

end Cert.DirGate.Host

end
-- ==== Proof.EdgeBridge.lean ====
/-
  The edge region's two output arrays are the reference's two message arrays.

  After the run the first output array is, row by row, the message of the edge's source row scaled by the edge's
  score (the region's arrays being the gathered rows and the weights as the host operations before it leave them);
  the reference's message array, read at an entry, is the same expression of the same rows and weights. So the two
  arrays are equal, entry by entry; the same for the other direction.
-/
import proofs.«139908_j19439021982026_2_alg».proof.Proof.EdgeArrays
import proofs.«139908_j19439021982026_2_alg».proof.Proof.RefEdge
import proofs.«139908_j19439021982026_2_alg».proof.Proof.HostStages

noncomputable section

open scoped BigOperators

namespace Cert.DirGate.Bridge

open Cert.KernelIdeal Cert.KernelIdeal.Gen Cert.KernelIdeal.GenP
open Idealize.ShloMosaic Idealize.ShloMosaic.TcCoe Idealize.ShloMosaic.ValueIdx Idealize.SL.Sem
open Cert.DirGate

variable (m : (ℓ : Loc nD τ sig) → Buf (Elt Ideal) ℓ) (ρ : Dev nD → PrngReg) (c : Dev nD)

/-- The messages towards the destinations: the kernel's array is the reference's. -/
theorem edge_in :
    Edge.inArr (V1 m ρ) c
      = Cert.ReferenceIdeal.Read.val_main_v41 (F := Ideal) (m ((c : Thread nD τ).loc main_arg0)) (m ((c : Thread nD τ).loc main_arg1))
          (m ((c : Thread nD τ).loc main_arg2)) (m ((c : Thread nD τ).loc main_arg3)) (m ((c : Thread nD τ).loc main_arg6))
          (m ((c : Thread nD τ).loc main_arg7)) (m ((c : Thread nD τ).loc main_arg8)) (m ((c : Thread nD τ).loc main_arg9)) := by
  funext i
  obtain ⟨e, o, rfl⟩ : ∃ (e : Fin 800000) (o : Fin 128), i = ix2 e o := ⟨i 0, i 1, eq_ix2 i⟩
  rw [Ref.msgIn_apply]
  unfold Edge.inArr Edge.msgArr
  rw [Host.src_rows m ρ c, Host.dst_rows m ρ c, Host.score_w1 m ρ c, Host.score_w2 m ρ c, Host.msg_w_in m ρ c]
  simp only [Host.score_b1 m ρ c, Host.msg_b_in m ρ c, Host.score_b2 m ρ c]

/-- The messages towards the sources: the kernel's array is the reference's. -/
theorem edge_out :
    Edge.outArr (V1 m ρ) c
      = Cert.ReferenceIdeal.Read.val_main_v48 (F := Ideal) (m ((c : Thread nD τ).loc main_arg0)) (m ((c : Thread nD τ).loc main_arg1))
          (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9)) := by
  funext i
  obtain ⟨e, o, rfl⟩ : ∃ (e : Fin 800000) (o : Fin 128), i = ix2 e o := ⟨i 0, i 1, eq_ix2 i⟩
  rw [Ref.msgOut_apply]
  unfold Edge.outArr Edge.msgArr
  rw [Host.src_rows m ρ c, Host.dst_rows m ρ c, Host.score_w1 m ρ c, Host.score_w2 m ρ c, Host.msg_w_out m ρ c]
  simp only [Host.score_b1 m ρ c, Host.msg_b_out m ρ c, Host.score_b2 m ρ c]

end Cert.DirGate.Bridge

end
-- ==== Proof.GateBridge.lean ====
/-
  The kernel program's result array is the reference's result, as terms of the arguments.

  After the run the result array is, row by row, the fused value of the arrays the node region finds: the two
  message arrays summed into the nodes, the two clamped degree columns, the nodes' own features and the gate's
  weights. The summed arrays are the sums of the edge region's two output arrays, which are the reference's two message
  arrays; the degrees, the features and the weights are the reference's own terms. The reference's result, read at an
  entry, is the same fused value of the same rows. So the two arrays are equal, entry by entry.
-/
import proofs.«139908_j19439021982026_2_alg».proof.Proof.GateArrays
import proofs.«139908_j19439021982026_2_alg».proof.Proof.RefGate
import proofs.«139908_j19439021982026_2_alg».proof.Proof.HostStagesGate
import proofs.«139908_j19439021982026_2_alg».proof.Proof.EdgeBridge

noncomputable section

open scoped BigOperators

namespace Cert.DirGate.Bridge

open Cert.KernelIdeal Cert.KernelIdeal.Gen Cert.KernelIdeal.GenP
open Idealize.ShloMosaic Idealize.ShloMosaic.TcCoe Idealize.ShloMosaic.ValueIdx Idealize.SL.Sem
open Cert.DirGate

/-- The fused array at entry (n, o) is the fused value of row n of each array. -/
theorem fusedArr_at (inRaw outRaw : S50000x128.Idx → EReal) (inDeg outDeg : S50000x1.Idx → EReal) (x : S50000x128.Idx → EReal)
    (W₁ : S256x128.Idx → EReal) (b₁ : S1x128.Idx → EReal) (w₂ : S128x1.Idx → EReal) (b₂ : S1x1.Idx → EReal)
    (n : Fin 50000) (o : Fin 128) :
    Gate.fusedArr inRaw outRaw inDeg outDeg x W₁ b₁ w₂ b₂ (ix2 n o)
      = fused (fun o' => inRaw (ix2 n o')) (fun o' => outRaw (ix2 n o')) (inDeg (ix2 n (0 : Fin 1))) (outDeg (ix2 n (0 : Fin 1)))
          (fun o' => x (ix2 n o')) (fun k j => W₁ (ix2 k j)) (fun j => b₁ (ix2 (0 : Fin 1) j)) (fun j => w₂ (ix2 j (0 : Fin 1)))
          (b₂ (ix2 (0 : Fin 1) (0 : Fin 1))) o := rfl

variable (m : (ℓ : Loc nD τ sig) → Buf (Elt Ideal) ℓ) (ρ : Dev nD → PrngReg) (c : Dev nD)

/-- What the node region's write-backs leave in the result array is the reference's result of the same arguments. -/
theorem result_eq :
    (dat1 (V3 m ρ) c).arrAt 9 cfg1.N
      = Cert.ReferenceIdeal.Read.val_main_v95 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10))
          (m ((c : Thread nD τ).loc main_arg11)) (m ((c : Thread nD τ).loc main_arg12)) (m ((c : Thread nD τ).loc main_arg13)) := by
  rw [Gate.final_res (V3 m ρ) c]
  funext i
  obtain ⟨n, o, rfl⟩ : ∃ (n : Fin 50000) (o : Fin 128), i = ix2 n o := ⟨i 0, i 1, eq_ix2 i⟩
  rw [Ref.result_apply]
  unfold Gate.resArr
  rw [fusedArr_at]
  rw [Host.in_sums m ρ c, Host.out_sums m ρ c, Host.features_kept m ρ c, Host.gate_w1 m ρ c, Host.gate_w2 m ρ c,
    Host.in_degree m ρ c n, Host.out_degree m ρ c n, Host.gate_b2 m ρ c,
    Edge.final_in (V1 m ρ) c, Edge.final_out (V1 m ρ) c, edge_in m ρ c, edge_out m ρ c]
  simp only [Host.gate_b1 m ρ c]
  rfl

end Cert.DirGate.Bridge

end
-- ==== Proof.lean ====
/-
  A gated two-direction graph convolution as two tiled kernels, against its plain array program: equal results on
  the extended reals.

  For every edge both programs gather the feature rows of its two end nodes, score the joined rows with a two-layer
  scorer (a clamped hidden layer and a logistic output), and scale two affine images of the rows — one message for
  each direction — by the score. Both sum the messages into the nodes they point to and count the edges at every
  node, the counts clamped below by one. For every node both divide the two summed rows by the two counts, compute a
  gate with a scorer of the same form on the two normalized rows, mix the rows by the gate and add the node's own
  features. The kernel program does the per-edge part in blocks of 6400 edges and the per-node part in blocks of
  2000 nodes, with bf16 as the storage format of the rows and messages; at the exact values a change of float format
  does nothing, a block of rows is computed from those rows alone, and the blocks tile the arrays. So the per-edge
  arrays agree entry by entry, the sums and counts in between are the same operations on equal arrays, and the
  per-node result agrees entry by entry. Every operation occurs in both programs in the same order, so no law of
  the extended reals is needed and the inputs' finiteness is never used.

  The three frames are the generated ones (the reference's is its generated run with the result dropped); the
  idealization rewrote nothing, so there is nothing to preserve.
-/
import proofs.«139908_j19439021982026_2_alg».proof.Defs
import proofs.«139908_j19439021982026_2_alg».proof.Proof.Gen.Kernel
import proofs.«139908_j19439021982026_2_alg».proof.Proof.Gen.KernelIdeal
import proofs.«139908_j19439021982026_2_alg».proof.Proof.Gen.ReferenceIdeal
import proofs.«139908_j19439021982026_2_alg».proof.Proof.Gen.ReferenceIdeal.Run
import proofs.«139908_j19439021982026_2_alg».proof.Proof.Gen.ReferenceIdeal.Read
import proofs.«139908_j19439021982026_2_alg».proof.Proof.Gen.Pre_finite_inputs
import proofs.«139908_j19439021982026_2_alg».proof.Proof.PatchedFrameKernel
import proofs.«139908_j19439021982026_2_alg».proof.Proof.PatchedFrameKernelIdeal
import proofs.«139908_j19439021982026_2_alg».proof.Proof.RunValue
import proofs.«139908_j19439021982026_2_alg».proof.Proof.GateBridge
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.GenP.frame m ρ

/-- So does the kernel program at the exact values. -/
theorem frame_kernel_ideal : Cert.frame_KernelIdeal := fun m ρ _ => Cert.KernelIdeal.GenP.frame m ρ

/-- The reference runs and leaves its arguments as launched: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the same result array: the reference's
    composed term of the arguments, which the kernel program's two regions and the host operations around them
    compute block by block. -/
theorem algebraic : Cert.algebraic_KernelIdeal_ReferenceIdeal := by
  intro m ρ m' ρ' _ hagree
  refine ⟨fun c => Cert.ReferenceIdeal.Read.val_main_v95 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.DirGate.Bridge.result_eq m ρ c), (h c).2⟩)
      (Cert.KernelIdeal.GenP.run_result m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12, h13⟩ := hagree c
    rw [Cert.ReferenceIdeal.Read.val_main_v95_eq, h0, h1, h2, h3, h4, h5, h6, h7, h8, h9, h10, h11, h12, h13]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
